-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x32 : Shape := ⟨2, ![1048576, 32]⟩
abbrev S32x64 : Shape := ⟨2, ![32, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S_ : Shape := ⟨0, ![]⟩

class Facts : Prop where
  bcast_S_S1048576x32 : S_.BroadcastsInDim S1048576x32 (![] : Fin 0 → Fin S1048576x32.rank)
  reducesTo_S1048576x32_S_d0_1 : S1048576x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg7 : FVec F S64x16 .f32) (main_arg8 : FVec F S16 .f32) (main_v33 : IVec S_ 1) : IVec S_ 1 :=
  let main_v34 : FVec F S64x16 .f32 := Host.absf main_arg7
  let main_cst_12 : FVec F S_ .f32 := constant S_ .f32 0x7F800000#32
  let main_v35 : FVec F S64x16 .f32 := broadcastInDim S64x16 ![] bcast_S_S64x16 main_cst_12
  let main_v36 : IVec S64x16 1 := cmpf .olt main_v34 main_v35
  let main_c_13 : IVec S_ 1 := constantI S_ 1 1#1
  let main_v37 : IVec S_ 1 := (fun x v => Host.reduce IntOp.andi x v reducesTo_S64x16_S_d0_1 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg4 : FVec F S64 .f32) (main_arg5 : FVec F S64x64 .f32) (main_arg6 : FVec F S64 .f32) (main_arg7 : FVec F S64x16 .f32) (main_arg8 : FVec F S16 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S1048576x32 .f32) (main_arg1 : FVec F S32x64 .f32) (main_arg2 : FVec F S64 .f32) (main_arg3 : FVec F S64x64 .f32) (main_arg4 : FVec F S64 .f32) (main_arg5 : FVec F S64x64 .f32) (main_arg6 : FVec F S64 .f32) (main_arg7 : FVec F S64x16 .f32) (main_arg8 : FVec F S16 .f32) : IVec S_ 1 :=
  let main_v0 : FVec F S1048576x32 .f32 := Host.absf main_arg0
  let main_cst : FVec F S_ .f32 := constant S_ .f32 0x7F800000#32
  let main_v1 : FVec F S1048576x32 .f32 := broadcastInDim S1048576x32 ![] bcast_S_S1048576x32 main_cst
  let main_v2 : IVec S1048576x32 1 := cmpf .olt main_v0 main_v1
  let main_c : IVec S_ 1 := constantI S_ 1 1#1
  let main_v3 : IVec S_ 1 := (fun x v => Host.reduce IntOp.andi x v reducesTo_S1048576x32_S_d0_1 h_S_) main_v2 main_c
  let main_v4 : FVec F S32x64 .f32 := Host.absf main_arg1
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_v13 main_v16
-- ==== Kernel.lean ====
abbrev S1048576x32 : Shape := ⟨2, ![1048576, 32]⟩
abbrev S32x64 : Shape := ⟨2, ![32, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S131072x256 : Shape := ⟨2, ![131072, 256]⟩
abbrev S8x8 : Shape := ⟨2, ![8, 8]⟩
abbrev S_ : Shape := ⟨0, ![]⟩
abbrev S8x1x8x1 : Shape := ⟨4, ![8, 1, 8, 1]⟩
abbrev S1x32x1x64 : Shape := ⟨4, ![1, 32, 1, 64]⟩
abbrev S8x32x8x64 : Shape := ⟨4, ![8, 32, 8, 64]⟩
abbrev S256x512 : Shape := ⟨2, ![256, 512]⟩
abbrev S1x64x1x64 : Shape := ⟨4, ![1, 64, 1, 64]⟩
abbrev S8x64x8x64 : Shape := ⟨4, ![8, 64, 8, 64]⟩
abbrev S512x512 : Shape := ⟨2, ![512, 512]⟩
abbrev S1x64x1x16 : Shape := ⟨4, ![1, 64, 1, 16]⟩
abbrev S8x64x8x16 : Shape := ⟨4, ![8, 64, 8, 16]⟩
abbrev S512x128 : Shape := ⟨2, ![512, 128]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S1x16 : Shape := ⟨2, ![1, 16]⟩
abbrev S8x16 : Shape := ⟨2, ![8, 16]⟩
abbrev S128 : Shape := ⟨1, ![128]⟩
abbrev S1x128 : Shape := ⟨2, ![1, 128]⟩
abbrev S131072x128 : Shape := ⟨2, ![131072, 128]⟩
abbrev S2048x256 : Shape := ⟨2, ![2048, 256]⟩
abbrev S2048x128 : Shape := ⟨2, ![2048, 128]⟩
abbrev S2048x512 : Shape := ⟨2, ![2048, 512]⟩
abbrev S1048576x16 : Shape := ⟨2, ![1048576, 16]⟩

abbrev nBuf : Space → Nat
  | .hbm => 84
  | .vmem => 12
  | .smem => 0
  | _ => 0

abbrev bufTy : (tb : Table) → Fin (tcTables nBuf tb) → BufTy
  | .hbm, ⟨0, _⟩ => ⟨S1048576x32, .f32⟩
  | .hbm, ⟨1, _⟩ => ⟨S32x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x16, .f32⟩
  | .hbm, ⟨8, _⟩ => ⟨S16, .f32⟩
  | .hbm, ⟨9, _⟩ => ⟨S131072x256, .f32⟩
  | .hbm, ⟨10, _⟩ => ⟨S8x8, .i32⟩
  | .hbm, ⟨11, _⟩ => ⟨S8x8, .i32⟩
  | .hbm, ⟨12, _⟩ => ⟨S_, .i32⟩
  | .hbm, ⟨13, _⟩ => ⟨S8x8, .i32⟩
  | .hbm, ⟨14, _⟩ => ⟨S8x8, .i32⟩
  | .hbm, ⟨15, _⟩ => ⟨S8x8, .i1⟩
  | .hbm, ⟨16, _⟩ => ⟨S8x8, .f32⟩
  | .hbm, ⟨17, _⟩ => ⟨S8x1x8x1, .f32⟩
  | .hbm, ⟨18, _⟩ => ⟨S1x32x1x64, .f32⟩
  | .hbm, ⟨19, _⟩ => ⟨S8x32x8x64, .f32⟩
  | .hbm, ⟨20, _⟩ => ⟨S8x32x8x64, .f32⟩
  | .hbm, ⟨21, _⟩ => ⟨S8x32x8x64, .f32⟩
  | .hbm, ⟨22, _⟩ => ⟨S256x512, .f32⟩
  | .hbm, ⟨23, _⟩ => ⟨S256x512, .bf16⟩
  | .hbm, ⟨24, _⟩ => ⟨S8x8, .i32⟩
  | .hbm, ⟨25, _⟩ => ⟨S8x8, .i32⟩
  | .hbm, ⟨26, _⟩ => ⟨S_, .i32⟩
  | .hbm, ⟨27, _⟩ => ⟨S8x8, .i32⟩
  | .hbm, ⟨28, _⟩ => ⟨S8x8, .i32⟩
  | .hbm, ⟨29, _⟩ => ⟨S8x8, .i1⟩
  | .hbm, ⟨30, _⟩ => ⟨S8x8, .f32⟩
  | .hbm, ⟨31, _⟩ => ⟨S8x1x8x1, .f32⟩
  | .hbm, ⟨32, _⟩ => ⟨S1x64x1x64, .f32⟩
  | .hbm, ⟨33, _⟩ => ⟨S8x64x8x64, .f32⟩
  | .hbm, ⟨34, _⟩ => ⟨S8x64x8x64, .f32⟩
  | .hbm, ⟨35, _⟩ => ⟨S8x64x8x64, .f32⟩
  | .hbm, ⟨36, _⟩ => ⟨S512x512, .f32⟩
  | .hbm, ⟨37, _⟩ => ⟨S512x512, .bf16⟩
  | .hbm, ⟨38, _⟩ => ⟨S8x8, .i32⟩
  | .hbm, ⟨39, _⟩ => ⟨S8x8, .i32⟩
  | .hbm, ⟨40, _⟩ => ⟨S_, .i32⟩
  | .hbm, ⟨41, _⟩ => ⟨S8x8, .i32⟩
  | .hbm, ⟨42, _⟩ => ⟨S8x8, .i32⟩
  | .hbm, ⟨43, _⟩ => ⟨S8x8, .i1⟩
  | .hbm, ⟨44, _⟩ => ⟨S8x8, .f32⟩
  | .hbm, ⟨45, _⟩ => ⟨S8x1x8x1, .f32⟩
  | .hbm, ⟨46, _⟩ => ⟨S1x64x1x64, .f32⟩
  | .hbm, ⟨47, _⟩ => ⟨S8x64x8x64, .f32⟩
  | .hbm, ⟨48, _⟩ => ⟨S8x64x8x64, .f32⟩
  | .hbm, ⟨49, _⟩ => ⟨S8x64x8x64, .f32⟩
  | .hbm, ⟨50, _⟩ => ⟨S512x512, .f32⟩
  | .hbm, ⟨51, _⟩ => ⟨S512x512, .bf16⟩
  | .hbm, ⟨52, _⟩ => ⟨S8x8, .i32⟩
  | .hbm, ⟨53, _⟩ => ⟨S8x8, .i32⟩
  | .hbm, ⟨54, _⟩ => ⟨S_, .i32⟩
  | .hbm, ⟨55, _⟩ => ⟨S8x8, .i32⟩
  | .hbm, ⟨56, _⟩ => ⟨S8x8, .i32⟩
  | .hbm, ⟨57, _⟩ => ⟨S8x8, .i1⟩
  | .hbm, ⟨58, _⟩ => ⟨S8x8, .f32⟩
  | .hbm, ⟨59, _⟩ => ⟨S8x1x8x1, .f32⟩
  | .hbm, ⟨60, _⟩ => ⟨S1x64x1x16, .f32⟩
  | .hbm, ⟨61, _⟩ => ⟨S8x64x8x16, .f32⟩
  | .hbm, ⟨62, _⟩ => ⟨S8x64x8x16, .f32⟩
  | .hbm, ⟨63, _⟩ => ⟨S8x64x8x16, .f32⟩
  | .hbm, ⟨64, _⟩ => ⟨S512x128, .f32⟩
  | .hbm, ⟨65, _⟩ => ⟨S512x128, .bf16⟩
  | .hbm, ⟨66, _⟩ => ⟨S1x64, .f32⟩
  | .hbm, ⟨67, _⟩ => ⟨S8x64, .f32⟩
  | .hbm, ⟨68, _⟩ => ⟨S512, .f32⟩
  | .hbm, ⟨69, _⟩ => ⟨S1x512, .f32⟩
  | .hbm, ⟨70, _⟩ => ⟨S1x64, .f32⟩
  | .hbm, ⟨71, _⟩ => ⟨S8x64, .f32⟩
  | .hbm, ⟨72, _⟩ => ⟨S512, .f32⟩
  | .hbm, ⟨73, _⟩ => ⟨S1x512, .f32⟩
  | .hbm, ⟨74, _⟩ => ⟨S1x64, .f32⟩
  | .hbm, ⟨75, _⟩ => ⟨S8x64, .f32⟩
  | .hbm, ⟨76, _⟩ => ⟨S512, .f32⟩
  | .hbm, ⟨77, _⟩ => ⟨S1x512, .f32⟩
  | .hbm, ⟨78, _⟩ => ⟨S1x16, .f32⟩
  | .hbm, ⟨79, _⟩ => ⟨S8x16, .f32⟩
  | .hbm, ⟨80, _⟩ => ⟨S128, .f32⟩
  | .hbm, ⟨81, _⟩ => ⟨S1x128, .f32⟩
  | .hbm, ⟨82, _⟩ => ⟨S131072x128, .f32⟩
  | .hbm, ⟨83, _⟩ => ⟨S1048576x16, .f32⟩
  | .local _ .vmem, ⟨0, _⟩ => ⟨S2048x256, .f32⟩
  | .local _ .vmem, ⟨1, _⟩ => ⟨S2048x256, .f32⟩
  | .local _ .vmem, ⟨2, _⟩ => ⟨S256x512, .bf16⟩
  | .local _ .vmem, ⟨3, _⟩ => ⟨S1x512, .f32⟩
  | .local _ .vmem, ⟨4, _⟩ => ⟨S512x512, .bf16⟩
  | .local _ .vmem, ⟨5, _⟩ => ⟨S1x512, .f32⟩
  | .local _ .vmem, ⟨6, _⟩ => ⟨S512x512, .bf16⟩
  | .local _ .vmem, ⟨7, _⟩ => ⟨S1x512, .f32⟩
  | .local _ .vmem, ⟨8, _⟩ => ⟨S512x128, .bf16⟩
  | .local _ .vmem, ⟨9, _⟩ => ⟨S1x128, .f32⟩
  | .local _ .vmem, ⟨10, _⟩ => ⟨S2048x128, .f32⟩
  | .local _ .vmem, ⟨11, _⟩ => ⟨S2048x128, .f32⟩
  | _, _ => ⟨S1048576x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_1 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_c_2 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_call3_v0 : Ref sig .tc := ⟨.hbm, 59, rfl⟩
abbrev main_call3_v1 : Ref sig .tc := ⟨.hbm, 60, rfl⟩
abbrev main_call3_v2 : Ref sig .tc := ⟨.hbm, 61, rfl⟩
abbrev main_call3_v3 : Ref sig .tc := ⟨.hbm, 62, rfl⟩
abbrev main_call3_v4 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S1048576x32_S131072x256 : S1048576x32.ShapeCasts S131072x256
  bcast_S_S8x8 : S_.BroadcastsInDim S8x8 (![] : Fin 0 → Fin S8x8.rank)
  bcast_S8x8_S8x1x8x1_0_2 : S8x8.BroadcastsInDim S8x1x8x1 (![0, 2] : Fin 2 → Fin S8x1x8x1.rank)
  bcast_S32x64_S1x32x1x64_1_3 : S32x64.BroadcastsInDim S1x32x1x64 (![1, 3] : Fin 2 → Fin S1x32x1x64.rank)
  bcast_S8x1x8x1_S8x32x8x64_0_1_2_3 : S8x1x8x1.BroadcastsInDim S8x32x8x64 (![0, 1, 2, 3] : Fin 4 → Fin S8x32x8x64.rank)
  bcast_S1x32x1x64_S8x32x8x64_0_1_2_3 : S1x32x1x64.BroadcastsInDim S8x32x8x64 (![0, 1, 2, 3] : Fin 4 → Fin S8x32x8x64.rank)
  shapeCasts_S8x32x8x64_S256x512 : S8x32x8x64.ShapeCasts S256x512
  bitsLt_bf16_f32 : FTy.bits .bf16 < FTy.bits .f32
  bcast_S64x64_S1x64x1x64_1_3 : S64x64.BroadcastsInDim S1x64x1x64 (![1, 3] : Fin 2 → Fin S1x64x1x64.rank)
  bcast_S8x1x8x1_S8x64x8x64_0_1_2_3 : S8x1x8x1.BroadcastsInDim S8x64x8x64 (![0, 1, 2, 3] : Fin 4 → Fin S8x64x8x64.rank)
  bcast_S1x64x1x64_S8x64x8x64_0_1_2_3 : S1x64x1x64.BroadcastsInDim S8x64x8x64 (![0, 1, 2, 3] : Fin 4 → Fin S8x64x8x64.rank)
  shapeCasts_S8x64x8x64_S512x512 : S8x64x8x64.ShapeCasts S512x512
  bcast_S64x16_S1x64x1x16_1_3 : S64x16.BroadcastsInDim S1x64x1x16 (![1, 3] : Fin 2 → Fin S1x64x1x16.rank)
  bcast_S8x1x8x1_S8x64x8x16_0_1_2_3 : S8x1x8x1.BroadcastsInDim S8x64x8x16 (![0, 1, 2, 3] : Fin 4 → Fin S8x64x8x16.rank)
  bcast_S1x64x1x16_S8x64x8x16_0_1_2_3 : S1x64x1x16.BroadcastsInDim S8x64x8x16 (![0, 1, 2, 3] : Fin 4 → Fin S8x64x8x16.rank)
  shapeCasts_S8x64x8x16_S512x128 : S8x64x8x16.ShapeCasts S512x128
  shapeCasts_S64_S1x64 : S64.ShapeCasts S1x64
  bcast_S1x64_S8x64_0_1 : S1x64.BroadcastsInDim S8x64 (![0, 1] : Fin 2 → Fin S8x64.rank)
  shapeCasts_S8x64_S512 : S8x64.ShapeCasts S512
  shapeCasts_S512_S1x512 : S512.ShapeCasts S1x512
  shapeCasts_S16_S1x16 : S16.ShapeCasts S1x16
  bcast_S1x16_S8x16_0_1 : S1x16.BroadcastsInDim S8x16 (![0, 1] : Fin 2 → Fin S8x16.rank)
  shapeCasts_S8x16_S128 : S8x16.ShapeCasts S128
  shapeCasts_S128_S1x128 : S128.ShapeCasts S1x128
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  shapeCasts_S131072x128_S1048576x16 : S131072x128.ShapeCasts S1048576x16
  dot_S2048x256_S256x512_S2048x512_1_0_0_1_n_n_wf : DotDims.WF S2048x256 S256x512 S2048x512 [1] [0] [0] [1] [] []
  dot_S2048x512_S512x512_S2048x512_1_0_0_1_n_n_wf : DotDims.WF S2048x512 S512x512 S2048x512 [1] [0] [0] [1] [] []
  dot_S2048x512_S512x128_S2048x128_1_0_0_1_n_n_wf : DotDims.WF S2048x512 S512x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S131072x256.size a
  hwx0_0 : ∀ i : grid0.Coords, EltTy.bits .f32 = 32 ∨ (Rect.block (s := S131072x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .bf16 = 32 ∨ (Rect.block (s := S256x512) S256x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x128.size a ≤ S512x128.size a
  hwx0_7 : ∀ i : grid0.Coords, EltTy.bits .bf16 = 32 ∨ (Rect.block (s := S512x128) S512x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x128.size a ≤ S131072x128.size a
  hwx0_9 : ∀ i : grid0.Coords, EltTy.bits .f32 = 32 ∨ (Rect.block (s := S131072x128) S2048x128.size (cc0_transform_9 i) (hinb0_9 i)).WholeWords (EltTy.packing .f32)

variable [Facts₀]

def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf

abbrev win0_0 : Pipeline.Window sig grid0 :=
  Pipeline.Window.ofSpec (Memref.whole main_v0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v40) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v44) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v32) S512x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v48) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v49) S2048x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S1048576x32 : Shape := ⟨2, ![1048576, 32]⟩
abbrev S32x64 : Shape := ⟨2, ![32, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S1048576x64 : Shape := ⟨2, ![1048576, 64]⟩
abbrev S1x64 : Shape := ⟨2, ![1, 64]⟩
abbrev S_ : Shape := ⟨0, ![]⟩
abbrev S1048576x16 : Shape := ⟨2, ![1048576, 16]⟩
abbrev S1x16 : Shape := ⟨2, ![1, 16]⟩

abbrev nBuf : Space → Nat
  | .hbm => 34
  | .vmem => 0
  | .smem => 0
  | _ => 0

abbrev bufTy : (tb : Table) → Fin (tcTables nBuf tb) → BufTy
  | .hbm, ⟨0, _⟩ => ⟨S1048576x32, .f32⟩
  | .hbm, ⟨1, _⟩ => ⟨S32x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x16, .f32⟩
  | .hbm, ⟨8, _⟩ => ⟨S16, .f32⟩
  | .hbm, ⟨9, _⟩ => ⟨S1048576x64, .f32⟩
  | .hbm, ⟨10, _⟩ => ⟨S1x64, .f32⟩
  | .hbm, ⟨11, _⟩ => ⟨S1048576x64, .f32⟩
  | .hbm, ⟨12, _⟩ => ⟨S1048576x64, .f32⟩
  | .hbm, ⟨13, _⟩ => ⟨S_, .f32⟩
  | .hbm, ⟨14, _⟩ => ⟨S1048576x64, .f32⟩
  | .hbm, ⟨15, _⟩ => ⟨S1048576x64, .f32⟩
  | .hbm, ⟨16, _⟩ => ⟨S1048576x64, .f32⟩
  | .hbm, ⟨17, _⟩ => ⟨S1x64, .f32⟩
  | .hbm, ⟨18, _⟩ => ⟨S1048576x64, .f32⟩
  | .hbm, ⟨19, _⟩ => ⟨S1048576x64, .f32⟩
  | .hbm, ⟨20, _⟩ => ⟨S_, .f32⟩
  | .hbm, ⟨21, _⟩ => ⟨S1048576x64, .f32⟩
  | .hbm, ⟨22, _⟩ => ⟨S1048576x64, .f32⟩
  | .hbm, ⟨23, _⟩ => ⟨S1048576x64, .f32⟩
  | .hbm, ⟨24, _⟩ => ⟨S1x64, .f32⟩
  | .hbm, ⟨25, _⟩ => ⟨S1048576x64, .f32⟩
  | .hbm, ⟨26, _⟩ => ⟨S1048576x64, .f32⟩
  | .hbm, ⟨27, _⟩ => ⟨S_, .f32⟩
  | .hbm, ⟨28, _⟩ => ⟨S1048576x64, .f32⟩
  | .hbm, ⟨29, _⟩ => ⟨S1048576x64, .f32⟩
  | .hbm, ⟨30, _⟩ => ⟨S1048576x16, .f32⟩
  | .hbm, ⟨31, _⟩ => ⟨S1x16, .f32⟩
  | .hbm, ⟨32, _⟩ => ⟨S1048576x16, .f32⟩
  | .hbm, ⟨33, _⟩ => ⟨S1048576x16, .f32⟩
  | _, _ => ⟨S1048576x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_cst : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call2_cst : Ref sig .tc := ⟨.hbm, 27, rfl⟩
abbrev main_call2_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S1048576x64_0_1 : S1x64.BroadcastsInDim S1048576x64 (![0, 1] : Fin 2 → Fin S1048576x64.rank)
  bcast_S_S1048576x64 : S_.BroadcastsInDim S1048576x64 (![] : Fin 0 → Fin S1048576x64.rank)
  bcast_S16_S1x16_1 : S16.BroadcastsInDim S1x16 (![1] : Fin 1 → Fin S1x16.rank)
  bcast_S1x16_S1048576x16_0_1 : S1x16.BroadcastsInDim S1048576x16 (![0, 1] : Fin 2 → Fin S1048576x16.rank)
  dot_S1048576x32_S32x64_S1048576x64_1_0_0_1_n_n_wf : DotDims.WF S1048576x32 S32x64 S1048576x64 [1] [0] [0] [1] [] []
  dot_S1048576x64_S64x64_S1048576x64_1_0_0_1_n_n_wf : DotDims.WF S1048576x64 S64x64 S1048576x64 [1] [0] [0] [1] [] []
  dot_S1048576x64_S64x16_S1048576x16_1_0_0_1_n_n_wf : DotDims.WF S1048576x64 S64x16 S1048576x16 [1] [0] [0] [1] [] []

variable [Facts₀]

def dot_S1048576x32_S32x64_S1048576x64_1_0_0_1_n_n : DotDims S1048576x32 S32x64 S1048576x64 where
  lhsContracting := [1]
  rhsContracting := [0]
  lhsNonContracting := [0]
  rhsNonContracting := [1]
  lhsBatch := []
  rhsBatch := []
  wf := dot_S1048576x32_S32x64_S1048576x64_1_0_0_1_n_n_wf
def dot_S1048576x64_S64x64_S1048576x64_1_0_0_1_n_n : DotDims S1048576x64 S64x64 S1048576x64 where
  lhsContracting := [1]
  rhsContracting := [0]
  lhsNonContracting := [0]
  rhsNonContracting := [1]
  lhsBatch := []
  rhsBatch := []
  wf := dot_S1048576x64_S64x64_S1048576x64_1_0_0_1_n_n_wf
def dot_S1048576x64_S64x16_S1048576x16_1_0_0_1_n_n : DotDims S1048576x64 S64x16 S1048576x16 where
  lhsContracting := [1]
  rhsContracting := [0]
  lhsNonContracting := [0]
  rhsNonContracting := [1]
  lhsBatch := []
  rhsBatch := []
  wf := dot_S1048576x64_S64x16_S1048576x16_1_0_0_1_n_n_wf

class Facts : Prop extends Facts₀ where

variable [Facts]
-- ==== Proof.Spec.lean ====
/-
  The function both programs compute, and the one algebraic fact that joins them.

  A row x ∈ EReal^32 goes through three affine layers followed by max(·, 0) and a last affine layer:
      mlp x = A₄ (relu (A₃ (relu (A₂ (relu (A₁ x))))))        A_l h = h · W_l + b_l.
  The result array holds `mlp` of row `n` of the input at entry `(n, o)`.

  The packed form of a layer works on eight rows at once: the eight rows are laid side by side as one
  row of length 8·K, the weight is the block-diagonal matrix whose (a, k), (s, o) entry is
  δ_{a s} · W k o, and the bias is repeated eight times.  Because 0 · y = 0 and 0 + y = y for every
  extended real y (infinite ones included), only the diagonal block survives the contraction, so segment
  `s` of the packed result is the plain layer applied to segment `s` of the packed row
  (`packed_layer`).  No finiteness of the entries is needed for this.
-/
import Idealize.ShloMosaic.Lib.ValueIdx
import Idealize.ShloMosaic.PureOps.Ideal.Laws

noncomputable section

namespace Cert.MlpSpec

open Idealize.ShloMosaic Idealize.ShloMosaic.ValueIdx

/-- One affine layer applied to one row: `(h · W + b) o = ∑ₖ h k · W k o + b o`. -/
def layer {K N : ℕ} (W : (⟨2, ![K, N]⟩ : Shape).Idx → EReal) (b : (⟨1, ![N]⟩ : Shape).Idx → EReal)
    (h : Fin K → EReal) : Fin N → EReal :=
  fun o => (∑ k : Fin K, h k * W (ix2 k o)) + b (ix1 o)

/-- `max(·, 0)` entry by entry. -/
def relu {N : ℕ} (h : Fin N → EReal) : Fin N → EReal := fun o => max (h o) 0

/-- The four-layer network on one row. -/
def mlp (W1 : (⟨2, ![32, 64]⟩ : Shape).Idx → EReal) (b1 : (⟨1, ![64]⟩ : Shape).Idx → EReal)
    (W2 : (⟨2, ![64, 64]⟩ : Shape).Idx → EReal) (b2 : (⟨1, ![64]⟩ : Shape).Idx → EReal)
    (W3 : (⟨2, ![64, 64]⟩ : Shape).Idx → EReal) (b3 : (⟨1, ![64]⟩ : Shape).Idx → EReal)
    (W4 : (⟨2, ![64, 16]⟩ : Shape).Idx → EReal) (b4 : (⟨1, ![16]⟩ : Shape).Idx → EReal)
    (x : Fin 32 → EReal) : Fin 16 → EReal :=
  layer W4 b4 (relu (layer W3 b3 (relu (layer W2 b2 (relu (layer W1 b1 x))))))

/-- The whole result array: entry `(n, o)` is `mlp` of row `n` of `x`, at `o`. -/
def G (x : (⟨2, ![1048576, 32]⟩ : Shape).Idx → EReal)
    (W1 : (⟨2, ![32, 64]⟩ : Shape).Idx → EReal) (b1 : (⟨1, ![64]⟩ : Shape).Idx → EReal)
    (W2 : (⟨2, ![64, 64]⟩ : Shape).Idx → EReal) (b2 : (⟨1, ![64]⟩ : Shape).Idx → EReal)
    (W3 : (⟨2, ![64, 64]⟩ : Shape).Idx → EReal) (b3 : (⟨1, ![64]⟩ : Shape).Idx → EReal)
    (W4 : (⟨2, ![64, 16]⟩ : Shape).Idx → EReal) (b4 : (⟨1, ![16]⟩ : Shape).Idx → EReal) :
    (⟨2, ![1048576, 16]⟩ : Shape).Idx → EReal :=
  fun i => mlp W1 b1 W2 b2 W3 b3 W4 b4 (fun k => x (ix2 (n0 := 1048576) (i 0) k)) (i 1)

theorem G_ix2 (x : (⟨2, ![1048576, 32]⟩ : Shape).Idx → EReal)
    (W1 : (⟨2, ![32, 64]⟩ : Shape).Idx → EReal) (b1 : (⟨1, ![64]⟩ : Shape).Idx → EReal)
    (W2 : (⟨2, ![64, 64]⟩ : Shape).Idx → EReal) (b2 : (⟨1, ![64]⟩ : Shape).Idx → EReal)
    (W3 : (⟨2, ![64, 64]⟩ : Shape).Idx → EReal) (b3 : (⟨1, ![64]⟩ : Shape).Idx → EReal)
    (W4 : (⟨2, ![64, 16]⟩ : Shape).Idx → EReal) (b4 : (⟨1, ![16]⟩ : Shape).Idx → EReal)
    (n : Fin 1048576) (o : Fin 16) :
    G x W1 b1 W2 b2 W3 b3 W4 b4 (ix2 n o) = mlp W1 b1 W2 b2 W3 b3 W4 b4 (fun k => x (ix2 n k)) o := rfl

/-! ## Packing eight rows side by side -/

/-- Position `k` of segment `a` in a packed row of `8 · K = M` entries: `K · a + k`. -/
def pack (K M : ℕ) (h : M = 8 * K) (a : Fin 8) (k : Fin K) : Fin M :=
  ⟨k.val + K * a.val, by
    subst h
    have ha := a.isLt
    have hk := k.isLt
    calc k.val + K * a.val < K + K * a.val := by omega
      _ = K * (a.val + 1) := by ring
      _ ≤ K * 8 := Nat.mul_le_mul_left K (by omega)
      _ = 8 * K := Nat.mul_comm K 8⟩

/-- Logical row `s` of packed row `R`: `8 · R + s`. -/
def row8 (R : Fin 131072) (s : Fin 8) : Fin 1048576 := ⟨s.val + 8 * R.val, by have := R.isLt; have := s.isLt; omega⟩

theorem row8_val (R : Fin 131072) (s : Fin 8) : (row8 R s).val = s.val + 8 * R.val := rfl

theorem pack_val (K M : ℕ) (h : M = 8 * K) (a : Fin 8) (k : Fin K) :
    (pack K M h a k).val = k.val + K * a.val := rfl

/-- A sum over a packed row is the sum over its eight segments. -/
theorem sum_pack {K M : ℕ} (h : M = 8 * K) (F : Fin M → EReal) :
    ∑ k' : Fin M, F k' = ∑ a : Fin 8, ∑ k : Fin K, F (pack K M h a k) := by
  subst h
  rw [← finProdFinEquiv.sum_comp, Fintype.sum_prod_type]
  rfl

/-- Only the diagonal block of a block-diagonal weight meets a packed row. -/
theorem sum_blockdiag {K : ℕ} (s : Fin 8) (f : Fin 8 → Fin K → EReal) (g : Fin K → EReal) :
    ∑ a : Fin 8, ∑ k : Fin K, f a k * ((if a = s then (1 : EReal) else 0) * g k) = ∑ k : Fin K, f s k * g k := by
  rw [Finset.sum_eq_single s]
  · simp
  · intro a _ ha
    simp [ha]
  · simp

/-- THE LAW: the packed layer, read at position `o` of segment `s`, is the plain layer applied to
    segment `s` of the packed row.  `Wp` is block diagonal with every diagonal block `W` (`hW`), `bp` is
    `b` repeated (`hb`). -/
theorem packed_layer {K N KK NN : ℕ} (hK : KK = 8 * K) (hN : NN = 8 * N)
    (hp : Fin KK → EReal) (Wp : Fin KK → Fin NN → EReal) (bp : Fin NN → EReal)
    (W : (⟨2, ![K, N]⟩ : Shape).Idx → EReal) (b : (⟨1, ![N]⟩ : Shape).Idx → EReal)
    (hW : ∀ (a : Fin 8) (k : Fin K) (s : Fin 8) (o : Fin N),
      Wp (pack K KK hK a k) (pack N NN hN s o) = (if a = s then (1 : EReal) else 0) * W (ix2 k o))
    (hb : ∀ (s : Fin 8) (o : Fin N), bp (pack N NN hN s o) = b (ix1 o))
    (s : Fin 8) (o : Fin N) :
    (∑ k' : Fin KK, hp k' * Wp k' (pack N NN hN s o)) + bp (pack N NN hN s o)
      = layer W b (fun k => hp (pack K KK hK s k)) o := by
  unfold layer
  rw [sum_pack hK, hb]
  simp only [hW]
  rw [sum_blockdiag s (fun a k => hp (pack K KK hK a k)) (fun k => W (ix2 k o))]

end Cert.MlpSpec

end
-- ==== Proof.RefValue.lean ====
/-
  The reference program is the four-layer network of the specification, entry by entry.

  Read at entry (n, o), each matrix product of the reference is ∑ₖ h k · W k o with h the previous stage's
  row n, each bias is broadcast along the rows so it contributes b o, and each rectification is
  max(·, 0) with the constant 0.  Stage by stage, innermost first, row n of the reference's
  intermediate arrays is therefore relu (layer W b (previous row)), and the final array is G.
-/
import proofs.«179516_j63848983822902_2_alg».proof.Proof.Gen.ReferenceIdeal.Read
import proofs.«179516_j63848983822902_2_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.MlpSpec

/-! ## The constant of each rectification is 0 -/

theorem zero0 (i : S1048576x64.Idx) : val_main_call0_v0 (F := Ideal) i = 0 := by
  rw [val_main_call0_v0_apply, val_main_call0_cst_apply]
  exact Ideal.ofBits_zero_f32

theorem zero1 (i : S1048576x64.Idx) : val_main_call1_v0 (F := Ideal) i = 0 := by
  rw [val_main_call1_v0_apply, val_main_call1_cst_apply]
  exact Ideal.ofBits_zero_f32

theorem zero2 (i : S1048576x64.Idx) : val_main_call2_v0 (F := Ideal) i = 0 := by
  rw [val_main_call2_v0_apply, val_main_call2_cst_apply]
  exact Ideal.ofBits_zero_f32

/-! ## Where each operation reads its operands, at entry (n, o) -/

theorem lidx0 (n : Fin 1048576) (o : Fin 64) (k : Fin 32) : lidx_main_v0 (ix2 n o) k = ix2 n k :=
  funext fun a => Fin.ext (by match a with | ⟨0, _⟩ => rfl | ⟨1, _⟩ => rfl)

theorem ridx0 (n : Fin 1048576) (o : Fin 64) (k : Fin 32) : ridx_main_v0 (ix2 n o) k = ix2 k o :=
  funext fun a => Fin.ext (by match a with | ⟨0, _⟩ => rfl | ⟨1, _⟩ => rfl)

theorem bidx0 (n : Fin 1048576) (o : Fin 64) : idx_main_v1 (idx_main_v2 (ix2 n o)) = ix1 o :=
  funext fun a => Fin.ext (by match a with | ⟨0, _⟩ => rfl)

theorem lidx5 (n : Fin 1048576) (o : Fin 64) (k : Fin 64) : lidx_main_v5 (ix2 n o) k = ix2 n k :=
  funext fun a => Fin.ext (by match a with | ⟨0, _⟩ => rfl | ⟨1, _⟩ => rfl)

theorem ridx5 (n : Fin 1048576) (o : Fin 64) (k : Fin 64) : ridx_main_v5 (ix2 n o) k = ix2 k o :=
  funext fun a => Fin.ext (by match a with | ⟨0, _⟩ => rfl | ⟨1, _⟩ => rfl)

theorem bidx5 (n : Fin 1048576) (o : Fin 64) : idx_main_v6 (idx_main_v7 (ix2 n o)) = ix1 o :=
  funext fun a => Fin.ext (by match a with | ⟨0, _⟩ => rfl)

theorem lidx10 (n : Fin 1048576) (o : Fin 64) (k : Fin 64) : lidx_main_v10 (ix2 n o) k = ix2 n k :=
  funext fun a => Fin.ext (by match a with | ⟨0, _⟩ => rfl | ⟨1, _⟩ => rfl)

theorem ridx10 (n : Fin 1048576) (o : Fin 64) (k : Fin 64) : ridx_main_v10 (ix2 n o) k = ix2 k o :=
  funext fun a => Fin.ext (by match a with | ⟨0, _⟩ => rfl | ⟨1, _⟩ => rfl)

theorem bidx10 (n : Fin 1048576) (o : Fin 64) : idx_main_v11 (idx_main_v12 (ix2 n o)) = ix1 o :=
  funext fun a => Fin.ext (by match a with | ⟨0, _⟩ => rfl)

theorem lidx15 (n : Fin 1048576) (o : Fin 16) (k : Fin 64) : lidx_main_v15 (ix2 n o) k = ix2 n k :=
  funext fun a => Fin.ext (by match a with | ⟨0, _⟩ => rfl | ⟨1, _⟩ => rfl)

theorem ridx15 (n : Fin 1048576) (o : Fin 16) (k : Fin 64) : ridx_main_v15 (ix2 n o) k = ix2 k o :=
  funext fun a => Fin.ext (by match a with | ⟨0, _⟩ => rfl | ⟨1, _⟩ => rfl)

theorem bidx15 (n : Fin 1048576) (o : Fin 16) : idx_main_v16 (idx_main_v17 (ix2 n o)) = ix1 o :=
  funext fun a => Fin.ext (by match a with | ⟨0, _⟩ => rfl)

/-! ## The stages, innermost first -/

/-- After the first rectification, row `n` is `relu (A₁ x_n)`. -/
theorem stage1 (x0 : (⟨S1048576x32, .f32⟩ : BufTy).Contents (Elt Ideal)) (x1 : (⟨S32x64, .f32⟩ : BufTy).Contents (Elt Ideal)) (x2 : (⟨S64, .f32⟩ : BufTy).Contents (Elt Ideal)) (n : Fin 1048576) (o : Fin 64) :
    val_main_v4 (F := Ideal) x0 x1 x2 (ix2 n o) = relu (layer x1 x2 (fun k => x0 (ix2 n k))) o := by
  rw [val_main_v4_apply, val_main_v3_apply, val_main_v0_apply, val_main_v2_apply, val_main_v1_apply, zero0, bidx0]
  simp only [lidx0, ridx0]
  rfl

/-- After the second rectification, row `n` is `relu (A₂ (relu (A₁ x_n)))`. -/
theorem stage2 (x0 : (⟨S1048576x32, .f32⟩ : BufTy).Contents (Elt Ideal)) (x1 : (⟨S32x64, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal)) (n : Fin 1048576) (o : Fin 64) :
    val_main_v9 (F := Ideal) x0 x1 x2 x3 x4 (ix2 n o)
      = relu (layer x3 x4 (relu (layer x1 x2 (fun k => x0 (ix2 n k))))) o := by
  rw [val_main_v9_apply, val_main_v8_apply, val_main_v5_apply, val_main_v7_apply, val_main_v6_apply, zero1, bidx5]
  simp only [lidx5, ridx5, stage1]
  rfl

/-- After the third rectification, row `n` is `relu (A₃ (relu (A₂ (relu (A₁ x_n)))))`. -/
theorem stage3 (x0 : (⟨S1048576x32, .f32⟩ : BufTy).Contents (Elt Ideal)) (x1 : (⟨S32x64, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (n : Fin 1048576) (o : Fin 64) :
    val_main_v14 (F := Ideal) x0 x1 x2 x3 x4 x5 x6 (ix2 n o)
      = relu (layer x5 x6 (relu (layer x3 x4 (relu (layer x1 x2 (fun k => x0 (ix2 n k))))))) o := by
  rw [val_main_v14_apply, val_main_v13_apply, val_main_v10_apply, val_main_v12_apply, val_main_v11_apply, zero2, bidx10]
  simp only [lidx10, ridx10, stage2]
  rfl

/-- The last affine layer: entry `(n, o)` of the reference's result is `mlp x_n` at `o`. -/
theorem stage4 (x0 : (⟨S1048576x32, .f32⟩ : BufTy).Contents (Elt Ideal)) (x1 : (⟨S32x64, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x16, .f32⟩ : BufTy).Contents (Elt Ideal)) (x8 : (⟨S16, .f32⟩ : BufTy).Contents (Elt Ideal)) (n : Fin 1048576) (o : Fin 16) :
    val_main_v18 (F := Ideal) x0 x1 x2 x3 x4 x5 x6 x7 x8 (ix2 n o)
      = mlp x1 x2 x3 x4 x5 x6 x7 x8 (fun k => x0 (ix2 n k)) o := by
  rw [val_main_v18_apply, val_main_v15_apply, val_main_v17_apply, val_main_v16_apply, bidx15]
  simp only [lidx15, ridx15, stage3]
  rfl

/-- The reference computes `G`. -/
theorem ref_eq (x0 : (⟨S1048576x32, .f32⟩ : BufTy).Contents (Elt Ideal)) (x1 : (⟨S32x64, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x16, .f32⟩ : BufTy).Contents (Elt Ideal)) (x8 : (⟨S16, .f32⟩ : BufTy).Contents (Elt Ideal)) :
    Cert.ReferenceIdeal.Read.val_main_v18 (F := Ideal) x0 x1 x2 x3 x4 x5 x6 x7 x8 = Cert.MlpSpec.G x0 x1 x2 x3 x4 x5 x6 x7 x8 := by
  funext i
  obtain ⟨n, o, rfl⟩ : ∃ (n : Fin 1048576) (o : Fin 16), i = ix2 n o := ⟨i 0, i 1, eq_ix2 i⟩
  rw [stage4, G_ix2]

end Cert.ReferenceIdeal.RefValue

end
-- ==== Proof.HostGlue.lean ====
/-
  The arrays the kernel is launched on, read entry by entry.

  Before the launch the program reshapes the input x : [1048576, 32] to [131072, 256] (eight consecutive rows
  side by side), builds for each weight W : [K, N] the block-diagonal matrix kron(I₈, W) : [8K, 8N] — the
  8×8 identity as the number of the bit "a + 0 = s", the product of the two broadcasts to [8, K, 8, N], a
  reshape — and repeats each bias eight times along one row.  This module says what each of these arrays
  holds at an index written with the packing of the specification:
      x'  (R, (s, k))         = x (8 R + s, k)
      W'  ((a, k), (s, o))    = δ_{a s} · W (k, o)
      b'  (0, (s, o))         = b o.
  First each array is identified with the term of its operations over the launch memory; then that term
  is read at an index, once for all sizes.
-/
import proofs.«179516_j63848983822902_2_alg».proof.Proof.Gen.KernelIdeal.Frame
import proofs.«179516_j63848983822902_2_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Glue

open Cert.KernelIdeal Cert.KernelIdeal.Gen Cert.MlpSpec Idealize.ShloMosaic Idealize.ShloMosaic.ValueIdx Idealize.ShloMosaic.TcCoe

variable (m : (ℓ : Loc nD τ sig) → Buf (Elt Ideal) ℓ) (c : Dev nD)

/-- The 8×8 matrix the program builds first: entry (a, s) is the number of the one-bit word
    "a + 0 = s" on 32-bit words. -/
def eye : FVec Ideal S8x8 .f32 :=
  uitofp .f32 (cmpi .eq (addi (iotaInDim S8x8 32 0) (broadcastInDim S8x8 ![] bcast_S_S8x8 (constantI S_ 32 0#32)))
    (iotaInDim S8x8 32 1))

/-- The Kronecker product of `eye` with a 32×64 matrix, as a 256×512 matrix. -/
def kron32x64 (w : FVec Ideal S32x64 .f32) : FVec Ideal S256x512 .bf16 :=
  truncf .bf16 (shapeCast S256x512 (mulf
    (broadcastInDim S8x32x8x64 ![0, 1, 2, 3] bcast_S8x1x8x1_S8x32x8x64_0_1_2_3 (broadcastInDim S8x1x8x1 ![0, 2] bcast_S8x8_S8x1x8x1_0_2 eye))
    (broadcastInDim S8x32x8x64 ![0, 1, 2, 3] bcast_S1x32x1x64_S8x32x8x64_0_1_2_3 (broadcastInDim S1x32x1x64 ![1, 3] bcast_S32x64_S1x32x1x64_1_3 w)))
    shapeCasts_S8x32x8x64_S256x512) bitsLt_bf16_f32

/-- The Kronecker product of `eye` with a 64×64 matrix, as a 512×512 matrix. -/
def kron64x64 (w : FVec Ideal S64x64 .f32) : FVec Ideal S512x512 .bf16 :=
  truncf .bf16 (shapeCast S512x512 (mulf
    (broadcastInDim S8x64x8x64 ![0, 1, 2, 3] bcast_S8x1x8x1_S8x64x8x64_0_1_2_3 (broadcastInDim S8x1x8x1 ![0, 2] bcast_S8x8_S8x1x8x1_0_2 eye))
    (broadcastInDim S8x64x8x64 ![0, 1, 2, 3] bcast_S1x64x1x64_S8x64x8x64_0_1_2_3 (broadcastInDim S1x64x1x64 ![1, 3] bcast_S64x64_S1x64x1x64_1_3 w)))
    shapeCasts_S8x64x8x64_S512x512) bitsLt_bf16_f32

/-- The Kronecker product of `eye` with a 64×16 matrix, as a 512×128 matrix. -/
def kron64x16 (w : FVec Ideal S64x16 .f32) : FVec Ideal S512x128 .bf16 :=
  truncf .bf16 (shapeCast S512x128 (mulf
    (broadcastInDim S8x64x8x16 ![0, 1, 2, 3] bcast_S8x1x8x1_S8x64x8x16_0_1_2_3 (broadcastInDim S8x1x8x1 ![0, 2] bcast_S8x8_S8x1x8x1_0_2 eye))
    (broadcastInDim S8x64x8x16 ![0, 1, 2, 3] bcast_S1x64x1x16_S8x64x8x16_0_1_2_3 (broadcastInDim S1x64x1x16 ![1, 3] bcast_S64x16_S1x64x1x16_1_3 w)))
    shapeCasts_S8x64x8x16_S512x128) bitsLt_bf16_f32

/-- A vector of 64 entries repeated eight times, as one row of 512. -/
def tile64 (b : FVec Ideal S64 .f32) : FVec Ideal S1x512 .f32 :=
  shapeCast S1x512 (shapeCast S512 (broadcastInDim S8x64 ![0, 1] bcast_S1x64_S8x64_0_1 (shapeCast S1x64 b shapeCasts_S64_S1x64))
    shapeCasts_S8x64_S512) shapeCasts_S512_S1x512

/-- A vector of 16 entries repeated eight times, as one row of 128. -/
def tile16 (b : FVec Ideal S16 .f32) : FVec Ideal S1x128 .f32 :=
  shapeCast S1x128 (shapeCast S128 (broadcastInDim S8x16 ![0, 1] bcast_S1x16_S8x16_0_1 (shapeCast S1x16 b shapeCasts_S16_S1x16))
    shapeCasts_S8x16_S128) shapeCasts_S128_S1x128

/-! ## The operations' terms read at an index -/

/-- `eye` is the identity matrix. -/
theorem eye_apply (a s : Fin 8) : eye (ix2 a s) = if a = s then (1 : EReal) else 0 := by
  show (((IntOp.cmpi .eq (IntOp.addi (BitVec.ofNat 32 a.val) (0#32)) (BitVec.ofNat 32 s.val)).toNat : ℝ) : EReal) = _
  have h0 : IntOp.addi (BitVec.ofNat 32 a.val) (0#32) = BitVec.ofNat 32 a.val := by simp [IntOp.addi]
  rw [h0]
  by_cases h : a = s
  · subst h
    simp [IntOp.cmpi]
  · have hne : BitVec.ofNat 32 a.val ≠ BitVec.ofNat 32 s.val := by
      intro e
      apply h
      apply Fin.ext
      have e' := congrArg BitVec.toNat e
      simp only [BitVec.toNat_ofNat] at e'
      have := a.isLt
      have := s.isLt
      omega
    simp [IntOp.cmpi, h, hne]

/-- The reshape of the input: packed row `R`, position `k` of segment `s`, is row `8 R + s`, position `k`. -/
theorem reshape_x_apply (x : S1048576x32.Idx → EReal) (R : Fin 131072) (s : Fin 8) (k : Fin 32) :
    shapeCast S131072x256 x shapeCasts_S1048576x32_S131072x256 (ix2 R (pack 32 256 rfl s k)) = x (ix2 (row8 R s) k) := by
  refine shapeCast_apply x _ _ _ ?_
  rw [Shape.rowMajor_val_two, Shape.rowMajor_val_two]
  show (s.val + 8 * R.val) * 32 + k.val = R.val * 256 + (k.val + 32 * s.val)
  omega

section AnySize
variable {K N M MM : ℕ}

/-- The Kronecker product of an 8×8 matrix `E` with a K×N matrix `w`, built as the product of the two
    broadcasts to 8×K×8×N and reshaped to (8K)×(8N): entry ((a, k), (s, o)) is `E a s · w k o`. -/
theorem kron_apply (hM : M = 8 * K) (hMM : MM = 8 * N)
    (E : FVec Ideal ⟨2, ![8, 8]⟩ .f32) (w : FVec Ideal ⟨2, ![K, N]⟩ .f32)
    (hE1 : (⟨2, ![8, 8]⟩ : Shape).BroadcastsInDim ⟨4, ![8, 1, 8, 1]⟩ ![0, 2])
    (hE2 : (⟨4, ![8, 1, 8, 1]⟩ : Shape).BroadcastsInDim ⟨4, ![8, K, 8, N]⟩ ![0, 1, 2, 3])
    (hW1 : (⟨2, ![K, N]⟩ : Shape).BroadcastsInDim ⟨4, ![1, K, 1, N]⟩ ![1, 3])
    (hW2 : (⟨4, ![1, K, 1, N]⟩ : Shape).BroadcastsInDim ⟨4, ![8, K, 8, N]⟩ ![0, 1, 2, 3])
    (hc : (⟨4, ![8, K, 8, N]⟩ : Shape).ShapeCasts ⟨2, ![M, MM]⟩)
    (a : Fin 8) (k : Fin K) (s : Fin 8) (o : Fin N) :
    shapeCast ⟨2, ![M, MM]⟩ (mulf
        (broadcastInDim ⟨4, ![8, K, 8, N]⟩ ![0, 1, 2, 3] hE2 (broadcastInDim ⟨4, ![8, 1, 8, 1]⟩ ![0, 2] hE1 E))
        (broadcastInDim ⟨4, ![8, K, 8, N]⟩ ![0, 1, 2, 3] hW2 (broadcastInDim ⟨4, ![1, K, 1, N]⟩ ![1, 3] hW1 w))) hc
      (ix2 (pack K M hM a k) (pack N MM hMM s o))
    = E (ix2 a s) * w (ix2 k o) := by
  have hk1 : k.val = if K = 1 then 0 else k.val := by
    split
    · have := k.isLt; omega
    · rfl
  have ho1 : o.val = if N = 1 then 0 else o.val := by
    split
    · have := o.isLt; omega
    · rfl
  rw [shapeCast_apply _ hc _ (ix4 a k s o) (by
    rw [Shape.rowMajor_val_two, Shape.rowMajor_val_four]
    show ((a.val * K + k.val) * 8 + s.val) * N + o.val = (k.val + K * a.val) * MM + (o.val + N * s.val)
    subst hMM
    ring), mulf_apply]
  congr 1
  · rw [broadcastInDim_apply _ hE2 _ (ix4 a k s o) (ix4 a (0 : Fin 1) s (0 : Fin 1)) (fun ax =>
      match ax with | ⟨0, _⟩ => rfl | ⟨1, _⟩ => rfl | ⟨2, _⟩ => rfl | ⟨3, _⟩ => rfl)]
    exact broadcastInDim_apply _ hE1 _ (ix4 a (0 : Fin 1) s (0 : Fin 1)) (ix2 a s) (fun ax =>
      match ax with | ⟨0, _⟩ => rfl | ⟨1, _⟩ => rfl)
  · rw [broadcastInDim_apply _ hW2 _ (ix4 a k s o) (ix4 (0 : Fin 1) k (0 : Fin 1) o) (fun ax =>
      match ax with | ⟨0, _⟩ => rfl | ⟨1, _⟩ => hk1 | ⟨2, _⟩ => rfl | ⟨3, _⟩ => ho1)]
    exact broadcastInDim_apply _ hW1 _ (ix4 (0 : Fin 1) k (0 : Fin 1) o) (ix2 k o) (fun ax =>
      match ax with | ⟨0, _⟩ => hk1 | ⟨1, _⟩ => ho1)

/-- A vector of `N` entries, made a row, repeated on eight rows, flattened and made a row again: position `o` of
    segment `s` is entry `o`. -/
theorem tile_apply (hMM : MM = 8 * N) (b : FVec Ideal ⟨1, ![N]⟩ .f32)
    (h1 : (⟨1, ![N]⟩ : Shape).ShapeCasts ⟨2, ![1, N]⟩)
    (hb : (⟨2, ![1, N]⟩ : Shape).BroadcastsInDim ⟨2, ![8, N]⟩ ![0, 1])
    (h2 : (⟨2, ![8, N]⟩ : Shape).ShapeCasts ⟨1, ![MM]⟩)
    (h3 : (⟨1, ![MM]⟩ : Shape).ShapeCasts ⟨2, ![1, MM]⟩)
    (s : Fin 8) (o : Fin N) :
    shapeCast ⟨2, ![1, MM]⟩ (shapeCast ⟨1, ![MM]⟩ (broadcastInDim ⟨2, ![8, N]⟩ ![0, 1] hb (shapeCast ⟨2, ![1, N]⟩ b h1)) h2) h3
      (ix2 (0 : Fin 1) (pack N MM hMM s o))
    = b (ix1 o) := by
  have ho1 : o.val = if N = 1 then 0 else o.val := by
    split
    · have := o.isLt; omega
    · rfl
  rw [shapeCast_a_1a_apply, shapeCast_apply _ h2 _ (ix2 s o) (by
    rw [Shape.rowMajor_val_two, Shape.rowMajor_val_one]
    show s.val * N + o.val = o.val + N * s.val
    ring),
    broadcastInDim_apply _ hb _ (ix2 s o) (ix2 (0 : Fin 1) o) (fun ax =>
      match ax with | ⟨0, _⟩ => rfl | ⟨1, _⟩ => ho1)]
  exact shapeCast_a_1a_apply b h1 0 o

end AnySize

/-! ## What the program's operations before the launch leave in each launched array -/

theorem V_main_v0 : (V m c main_v0 : S131072x256.Idx → EReal)
    = shapeCast S131072x256 (m ((c : Thread nD τ).loc main_arg0) : S1048576x32.Idx → EReal) shapeCasts_S1048576x32_S131072x256 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp; rfl

theorem V_main_v8 : (V m c main_v8 : S256x512.Idx → EReal) = kron32x64 (m ((c : Thread nD τ).loc main_arg1)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp; rfl

theorem V_main_v16 : (V m c main_v16 : S512x512.Idx → EReal) = kron64x64 (m ((c : Thread nD τ).loc main_arg3)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp; rfl

theorem V_main_v24 : (V m c main_v24 : S512x512.Idx → EReal) = kron64x64 (m ((c : Thread nD τ).loc main_arg5)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp; rfl

theorem V_main_v32 : (V m c main_v32 : S512x128.Idx → EReal) = kron64x16 (m ((c : Thread nD τ).loc main_arg7)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp; rfl

theorem V_main_v36 : (V m c main_v36 : S1x512.Idx → EReal) = tile64 (m ((c : Thread nD τ).loc main_arg2)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp; rfl

theorem V_main_v40 : (V m c main_v40 : S1x512.Idx → EReal) = tile64 (m ((c : Thread nD τ).loc main_arg4)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp; rfl

theorem V_main_v44 : (V m c main_v44 : S1x512.Idx → EReal) = tile64 (m ((c : Thread nD τ).loc main_arg6)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp; rfl

theorem V_main_v48 : (V m c main_v48 : S1x128.Idx → EReal) = tile16 (m ((c : Thread nD τ).loc main_arg8)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp; rfl

/-! ## The launched arrays at an index -/

theorem kron32x64_apply (w : FVec Ideal S32x64 .f32) (a : Fin 8) (k : Fin 32) (s : Fin 8) (o : Fin 64) :
    kron32x64 w (ix2 (pack 32 256 rfl a k) (pack 64 512 rfl s o)) = (if a = s then (1 : EReal) else 0) * w (ix2 k o) := by
  unfold kron32x64
  rw [truncf_apply, ← eye_apply]
  exact kron_apply rfl rfl eye w _ _ _ _ _ a k s o

theorem kron64x64_apply (w : FVec Ideal S64x64 .f32) (a : Fin 8) (k : Fin 64) (s : Fin 8) (o : Fin 64) :
    kron64x64 w (ix2 (pack 64 512 rfl a k) (pack 64 512 rfl s o)) = (if a = s then (1 : EReal) else 0) * w (ix2 k o) := by
  unfold kron64x64
  rw [truncf_apply, ← eye_apply]
  exact kron_apply rfl rfl eye w _ _ _ _ _ a k s o

theorem kron64x16_apply (w : FVec Ideal S64x16 .f32) (a : Fin 8) (k : Fin 64) (s : Fin 8) (o : Fin 16) :
    kron64x16 w (ix2 (pack 64 512 rfl a k) (pack 16 128 rfl s o)) = (if a = s then (1 : EReal) else 0) * w (ix2 k o) := by
  unfold kron64x16
  rw [truncf_apply, ← eye_apply]
  exact kron_apply rfl rfl eye w _ _ _ _ _ a k s o

theorem tile64_apply (b : FVec Ideal S64 .f32) (s : Fin 8) (o : Fin 64) :
    tile64 b (ix2 0 (pack 64 512 rfl s o)) = b (ix1 o) :=
  tile_apply rfl b _ _ _ _ s o

theorem tile16_apply (b : FVec Ideal S16 .f32) (s : Fin 8) (o : Fin 16) :
    tile16 b (ix2 0 (pack 16 128 rfl s o)) = b (ix1 o) :=
  tile_apply rfl b _ _ _ _ s o

/-- The packed input: packed row `R`, position `k` of segment `s`, is the input's row `8 R + s` at `k`. -/
theorem V_x (R : Fin 131072) (s : Fin 8) (k : Fin 32) :
    (V m c main_v0 : S131072x256.Idx → EReal) (ix2 R (pack 32 256 rfl s k))
      = (m ((c : Thread nD τ).loc main_arg0) : S1048576x32.Idx → EReal) (ix2 (row8 R s) k) := by
  rw [V_main_v0]
  exact reshape_x_apply _ R s k

/-- The first packed weight is block diagonal with every diagonal block the first weight. -/
theorem V_w1 (a : Fin 8) (k : Fin 32) (s : Fin 8) (o : Fin 64) :
    (V m c main_v8 : S256x512.Idx → EReal) (ix2 (pack 32 256 rfl a k) (pack 64 512 rfl s o))
      = (if a = s then (1 : EReal) else 0) * (m ((c : Thread nD τ).loc main_arg1) : S32x64.Idx → EReal) (ix2 k o) := by
  rw [V_main_v8]
  exact kron32x64_apply _ a k s o

/-- The second packed weight, likewise. -/
theorem V_w2 (a : Fin 8) (k : Fin 64) (s : Fin 8) (o : Fin 64) :
    (V m c main_v16 : S512x512.Idx → EReal) (ix2 (pack 64 512 rfl a k) (pack 64 512 rfl s o))
      = (if a = s then (1 : EReal) else 0) * (m ((c : Thread nD τ).loc main_arg3) : S64x64.Idx → EReal) (ix2 k o) := by
  rw [V_main_v16]
  exact kron64x64_apply _ a k s o

/-- The third packed weight, likewise. -/
theorem V_w3 (a : Fin 8) (k : Fin 64) (s : Fin 8) (o : Fin 64) :
    (V m c main_v24 : S512x512.Idx → EReal) (ix2 (pack 64 512 rfl a k) (pack 64 512 rfl s o))
      = (if a = s then (1 : EReal) else 0) * (m ((c : Thread nD τ).loc main_arg5) : S64x64.Idx → EReal) (ix2 k o) := by
  rw [V_main_v24]
  exact kron64x64_apply _ a k s o

/-- The fourth packed weight, likewise. -/
theorem V_w4 (a : Fin 8) (k : Fin 64) (s : Fin 8) (o : Fin 16) :
    (V m c main_v32 : S512x128.Idx → EReal) (ix2 (pack 64 512 rfl a k) (pack 16 128 rfl s o))
      = (if a = s then (1 : EReal) else 0) * (m ((c : Thread nD τ).loc main_arg7) : S64x16.Idx → EReal) (ix2 k o) := by
  rw [V_main_v32]
  exact kron64x16_apply _ a k s o

/-- The first packed bias is the first bias in every segment. -/
theorem V_b1 (s : Fin 8) (o : Fin 64) :
    (V m c main_v36 : S1x512.Idx → EReal) (ix2 0 (pack 64 512 rfl s o))
      = (m ((c : Thread nD τ).loc main_arg2) : S64.Idx → EReal) (ix1 o) := by
  rw [V_main_v36]
  exact tile64_apply _ s o

/-- The second packed bias, likewise. -/
theorem V_b2 (s : Fin 8) (o : Fin 64) :
    (V m c main_v40 : S1x512.Idx → EReal) (ix2 0 (pack 64 512 rfl s o))
      = (m ((c : Thread nD τ).loc main_arg4) : S64.Idx → EReal) (ix1 o) := by
  rw [V_main_v40]
  exact tile64_apply _ s o

/-- The third packed bias, likewise. -/
theorem V_b3 (s : Fin 8) (o : Fin 64) :
    (V m c main_v44 : S1x512.Idx → EReal) (ix2 0 (pack 64 512 rfl s o))
      = (m ((c : Thread nD τ).loc main_arg6) : S64.Idx → EReal) (ix1 o) := by
  rw [V_main_v44]
  exact tile64_apply _ s o

/-- The fourth packed bias, likewise. -/
theorem V_b4 (s : Fin 8) (o : Fin 16) :
    (V m c main_v48 : S1x128.Idx → EReal) (ix2 0 (pack 16 128 rfl s o))
      = (m ((c : Thread nD τ).loc main_arg8) : S16.Idx → EReal) (ix1 o) := by
  rw [V_main_v48]
  exact tile16_apply _ s o

end Cert.KernelIdeal.Glue
end
-- ==== Proof.Body.lean ====
/-
  The kernel body's arithmetic, read one entry at a time.

  The body multiplies a block of 2048 packed rows by a 256×512 weight, adds a bias row, takes
  max(·, 0), and repeats this with two 512×512 weights and a final 512×128 weight (whose bias is added
  last, without a max).  Every product into a zero accumulator is the plain sum over the contracted axis
  (`prod*_apply`), so each stage at (row y, column c) is
      max (∑ₖ h(y, k) · w(k, c) + b(0, c)) 0,
  and the last one ∑ₖ h(y, k) · w(k, c) + b(0, c).  A change of float format is the identity on
  extended reals and the casts of a vector to its own shape are the identity too.

  When the weights are block diagonal with diagonal blocks W_l and the biases are b_l repeated, segment
  `s` of packed row `y` of the result is the four-layer network applied to segment `s` of packed row
  `y` of the input block (`body_packed`), by the specification's `packed_layer`, once per layer.
-/
import proofs.«179516_j63848983822902_2_alg».proof.Proof.Gen.KernelIdeal.Skeleton
import proofs.«179516_j63848983822902_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Cert.MlpSpec Idealize.ShloMosaic Idealize.ShloMosaic.ValueIdx

theorem prod1_apply_l0 (i : S2048x512.Idx) (q : dot_S2048x256_S256x512_S2048x512_1_0_0_1_n_n.contr.Idx) : (dot_S2048x256_S256x512_S2048x512_1_0_0_1_n_n.lhsIdx i q 0).val = (i 0).val := by
  unfold DotDims.lhsIdx
  rw [dif_neg (show ¬(0 : Fin S2048x256.rank) ∈ dot_S2048x256_S256x512_S2048x512_1_0_0_1_n_n.lhsBatch by decide),
    dif_pos (show (0 : Fin S2048x256.rank) ∈ dot_S2048x256_S256x512_S2048x512_1_0_0_1_n_n.lhsNonContracting by decide)]
  rfl
theorem prod1_apply_l1 (i : S2048x512.Idx) (q : dot_S2048x256_S256x512_S2048x512_1_0_0_1_n_n.contr.Idx) : (dot_S2048x256_S256x512_S2048x512_1_0_0_1_n_n.lhsIdx i q 1).val = (q ⟨0, by decide⟩).val :=
  dot_S2048x256_S256x512_S2048x512_1_0_0_1_n_n.lhsIdx_val_of_single rfl i q
theorem prod1_apply_r0 (i : S2048x512.Idx) (q : dot_S2048x256_S256x512_S2048x512_1_0_0_1_n_n.contr.Idx) : (dot_S2048x256_S256x512_S2048x512_1_0_0_1_n_n.rhsIdx i q 0).val = (q ⟨0, by decide⟩).val :=
  dot_S2048x256_S256x512_S2048x512_1_0_0_1_n_n.rhsIdx_val_of_single rfl i q
theorem prod1_apply_r1 (i : S2048x512.Idx) (q : dot_S2048x256_S256x512_S2048x512_1_0_0_1_n_n.contr.Idx) : (dot_S2048x256_S256x512_S2048x512_1_0_0_1_n_n.rhsIdx i q 1).val = (i 1).val := by
  unfold DotDims.rhsIdx
  rw [dif_neg (show ¬(1 : Fin S256x512.rank) ∈ dot_S2048x256_S256x512_S2048x512_1_0_0_1_n_n.rhsBatch by decide),
    dif_pos (show (1 : Fin S256x512.rank) ∈ dot_S2048x256_S256x512_S2048x512_1_0_0_1_n_n.rhsNonContracting by decide)]
  rfl

/-- The `2048×256` by `256×512` product into a zero accumulator, read at row `y`, column `c`:
    the plain sum over the contracted axis. -/
theorem prod1_apply (l : FVec Ideal S2048x256 .bf16) (r : FVec Ideal S256x512 .bf16) (y : Fin 2048) (c : Fin 512) :
    matmul dot_S2048x256_S256x512_S2048x512_1_0_0_1_n_n none l r (constant S2048x512 .f32 0x00000000#32) (ix2 y c)
      = ∑ k : Fin 256, l (ix2 y k) * r (ix2 k c) := by
  refine (Ideal.matmul_constant_zero_apply dot_S2048x256_S256x512_S2048x512_1_0_0_1_n_n none l r (ix2 y c)).trans ?_
  rw [← Equiv.sum_comp (contrEquiv1 dot_S2048x256_S256x512_S2048x512_1_0_0_1_n_n 256 rfl rfl).symm]
  refine Finset.sum_congr rfl fun k _ => ?_
  have hk := contrEquiv1_symm_val dot_S2048x256_S256x512_S2048x512_1_0_0_1_n_n 256 rfl rfl k
  have el : dot_S2048x256_S256x512_S2048x512_1_0_0_1_n_n.lhsIdx (ix2 y c) ((contrEquiv1 dot_S2048x256_S256x512_S2048x512_1_0_0_1_n_n 256 rfl rfl).symm k) = ix2 y k :=
    funext fun a => Fin.ext (by
      match a with
      | ⟨0, _⟩ => exact prod1_apply_l0 _ _
      | ⟨1, _⟩ => exact (prod1_apply_l1 _ _).trans hk)
  have er : dot_S2048x256_S256x512_S2048x512_1_0_0_1_n_n.rhsIdx (ix2 y c) ((contrEquiv1 dot_S2048x256_S256x512_S2048x512_1_0_0_1_n_n 256 rfl rfl).symm k) = ix2 k c :=
    funext fun a => Fin.ext (by
      match a with
      | ⟨0, _⟩ => exact (prod1_apply_r0 _ _).trans hk
      | ⟨1, _⟩ => exact prod1_apply_r1 _ _)
  rw [el, er]

theorem prod2_apply_l0 (i : S2048x512.Idx) (q : dot_S2048x512_S512x512_S2048x512_1_0_0_1_n_n.contr.Idx) : (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide),
    dif_pos (show (0 : Fin S2048x512.rank) ∈ dot_S2048x512_S512x512_S2048x512_1_0_0_1_n_n.lhsNonContracting by decide)]
  rfl
theorem prod2_apply_l1 (i : S2048x512.Idx) (q : dot_S2048x512_S512x512_S2048x512_1_0_0_1_n_n.contr.Idx) : (dot_S2048x512_S512x512_S2048x512_1_0_0_1_n_n.lhsIdx i q 1).val = (q ⟨0, by decide⟩).val :=
  dot_S2048x512_S512x512_S2048x512_1_0_0_1_n_n.lhsIdx_val_of_single rfl i q
theorem prod2_apply_r0 (i : S2048x512.Idx) (q : dot_S2048x512_S512x512_S2048x512_1_0_0_1_n_n.contr.Idx) : (dot_S2048x512_S512x512_S2048x512_1_0_0_1_n_n.rhsIdx i q 0).val = (q ⟨0, by decide⟩).val :=
  dot_S2048x512_S512x512_S2048x512_1_0_0_1_n_n.rhsIdx_val_of_single rfl i q
theorem prod2_apply_r1 (i : S2048x512.Idx) (q : dot_S2048x512_S512x512_S2048x512_1_0_0_1_n_n.contr.Idx) : (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide),
    dif_pos (show (1 : Fin S512x512.rank) ∈ dot_S2048x512_S512x512_S2048x512_1_0_0_1_n_n.rhsNonContracting by decide)]
  rfl

/-- The `2048×512` by `512×512` product into a zero accumulator, read at row `y`, column `c`:
    the plain sum over the contracted axis. -/
theorem prod2_apply (l : FVec Ideal S2048x512 .bf16) (r : FVec Ideal S512x512 .bf16) (y : Fin 2048) (c : Fin 512) :
    matmul dot_S2048x512_S512x512_S2048x512_1_0_0_1_n_n none l r (constant S2048x512 .f32 0x00000000#32) (ix2 y c)
      = ∑ k : Fin 512, l (ix2 y k) * r (ix2 k c) := by
  refine (Ideal.matmul_constant_zero_apply dot_S2048x512_S512x512_S2048x512_1_0_0_1_n_n none l r (ix2 y c)).trans ?_
  rw [← Equiv.sum_comp (contrEquiv1 dot_S2048x512_S512x512_S2048x512_1_0_0_1_n_n 512 rfl rfl).symm]
  refine Finset.sum_congr rfl fun k _ => ?_
  have hk := contrEquiv1_symm_val dot_S2048x512_S512x512_S2048x512_1_0_0_1_n_n 512 rfl rfl k
  have el : dot_S2048x512_S512x512_S2048x512_1_0_0_1_n_n.lhsIdx (ix2 y c) ((contrEquiv1 dot_S2048x512_S512x512_S2048x512_1_0_0_1_n_n 512 rfl rfl).symm k) = ix2 y k :=
    funext fun a => Fin.ext (by
      match a with
      | ⟨0, _⟩ => exact prod2_apply_l0 _ _
      | ⟨1, _⟩ => exact (prod2_apply_l1 _ _).trans hk)
  have er : dot_S2048x512_S512x512_S2048x512_1_0_0_1_n_n.rhsIdx (ix2 y c) ((contrEquiv1 dot_S2048x512_S512x512_S2048x512_1_0_0_1_n_n 512 rfl rfl).symm k) = ix2 k c :=
    funext fun a => Fin.ext (by
      match a with
      | ⟨0, _⟩ => exact (prod2_apply_r0 _ _).trans hk
      | ⟨1, _⟩ => exact prod2_apply_r1 _ _)
  rw [el, er]

theorem prod3_apply_l0 (i : S2048x128.Idx) (q : dot_S2048x512_S512x128_S2048x128_1_0_0_1_n_n.contr.Idx) : (dot_S2048x512_S512x128_S2048x128_1_0_0_1_n_n.lhsIdx i q 0).val = (i 0).val := by
  unfold DotDims.lhsIdx
  rw [dif_neg (show ¬(0 : Fin S2048x512.rank) ∈ dot_S2048x512_S512x128_S2048x128_1_0_0_1_n_n.lhsBatch by decide),
    dif_pos (show (0 : Fin S2048x512.rank) ∈ dot_S2048x512_S512x128_S2048x128_1_0_0_1_n_n.lhsNonContracting by decide)]
  rfl
theorem prod3_apply_l1 (i : S2048x128.Idx) (q : dot_S2048x512_S512x128_S2048x128_1_0_0_1_n_n.contr.Idx) : (dot_S2048x512_S512x128_S2048x128_1_0_0_1_n_n.lhsIdx i q 1).val = (q ⟨0, by decide⟩).val :=
  dot_S2048x512_S512x128_S2048x128_1_0_0_1_n_n.lhsIdx_val_of_single rfl i q
theorem prod3_apply_r0 (i : S2048x128.Idx) (q : dot_S2048x512_S512x128_S2048x128_1_0_0_1_n_n.contr.Idx) : (dot_S2048x512_S512x128_S2048x128_1_0_0_1_n_n.rhsIdx i q 0).val = (q ⟨0, by decide⟩).val :=
  dot_S2048x512_S512x128_S2048x128_1_0_0_1_n_n.rhsIdx_val_of_single rfl i q
theorem prod3_apply_r1 (i : S2048x128.Idx) (q : dot_S2048x512_S512x128_S2048x128_1_0_0_1_n_n.contr.Idx) : (dot_S2048x512_S512x128_S2048x128_1_0_0_1_n_n.rhsIdx i q 1).val = (i 1).val := by
  unfold DotDims.rhsIdx
  rw [dif_neg (show ¬(1 : Fin S512x128.rank) ∈ dot_S2048x512_S512x128_S2048x128_1_0_0_1_n_n.rhsBatch by decide),
    dif_pos (show (1 : Fin S512x128.rank) ∈ dot_S2048x512_S512x128_S2048x128_1_0_0_1_n_n.rhsNonContracting by decide)]
  rfl

/-- The `2048×512` by `512×128` product into a zero accumulator, read at row `y`, column `c`:
    the plain sum over the contracted axis. -/
theorem prod3_apply (l : FVec Ideal S2048x512 .bf16) (r : FVec Ideal S512x128 .bf16) (y : Fin 2048) (c : Fin 128) :
    matmul dot_S2048x512_S512x128_S2048x128_1_0_0_1_n_n none l r (constant S2048x128 .f32 0x00000000#32) (ix2 y c)
      = ∑ k : Fin 512, l (ix2 y k) * r (ix2 k c) := by
  refine (Ideal.matmul_constant_zero_apply dot_S2048x512_S512x128_S2048x128_1_0_0_1_n_n none l r (ix2 y c)).trans ?_
  rw [← Equiv.sum_comp (contrEquiv1 dot_S2048x512_S512x128_S2048x128_1_0_0_1_n_n 512 rfl rfl).symm]
  refine Finset.sum_congr rfl fun k _ => ?_
  have hk := contrEquiv1_symm_val dot_S2048x512_S512x128_S2048x128_1_0_0_1_n_n 512 rfl rfl k
  have el : dot_S2048x512_S512x128_S2048x128_1_0_0_1_n_n.lhsIdx (ix2 y c) ((contrEquiv1 dot_S2048x512_S512x128_S2048x128_1_0_0_1_n_n 512 rfl rfl).symm k) = ix2 y k :=
    funext fun a => Fin.ext (by
      match a with
      | ⟨0, _⟩ => exact prod3_apply_l0 _ _
      | ⟨1, _⟩ => exact (prod3_apply_l1 _ _).trans hk)
  have er : dot_S2048x512_S512x128_S2048x128_1_0_0_1_n_n.rhsIdx (ix2 y c) ((contrEquiv1 dot_S2048x512_S512x128_S2048x128_1_0_0_1_n_n 512 rfl rfl).symm k) = ix2 k c :=
    funext fun a => Fin.ext (by
      match a with
      | ⟨0, _⟩ => exact (prod3_apply_r0 _ _).trans hk
      | ⟨1, _⟩ => exact prod3_apply_r1 _ _)
  rw [el, er]

/-! ## The stages of the body, as functions of the loaded blocks -/

/-- First stage: `max (x · w + b) 0` on a block of 2048 packed rows of length 256. -/
def stage1 (x : FVec Ideal S2048x256 .f32) (w : FVec Ideal S256x512 .bf16) (b : FVec Ideal S1x512 .f32) : FVec Ideal S2048x512 .f32 :=
  maximumf (addf (matmul dot_S2048x256_S256x512_S2048x512_1_0_0_1_n_n none
      (truncf .bf16 (shapeCast S2048x256 x shapeCasts_S2048x256_S2048x256) bitsLt_bf16_f32)
      (shapeCast S256x512 w shapeCasts_S256x512_S256x512) (constant S2048x512 .f32 0x00000000#32))
    (broadcastTo S2048x512 (shapeCast S1x512 b shapeCasts_S1x512_S1x512) broadcasts_S1x512_S2048x512))
    (broadcast S2048x512 (Scalar.ofBits .f32 0x00000000#32))

/-- Middle stages: `max (h · w + b) 0` on 2048 packed rows of length 512. -/
def stage2 (h : FVec Ideal S2048x512 .f32) (w : FVec Ideal S512x512 .bf16) (b : FVec Ideal S1x512 .f32) : FVec Ideal S2048x512 .f32 :=
  maximumf (addf (matmul dot_S2048x512_S512x512_S2048x512_1_0_0_1_n_n none
      (truncf .bf16 h bitsLt_bf16_f32)
      (shapeCast S512x512 w shapeCasts_S512x512_S512x512) (constant S2048x512 .f32 0x00000000#32))
    (broadcastTo S2048x512 (shapeCast S1x512 b shapeCasts_S1x512_S1x512) broadcasts_S1x512_S2048x512))
    (broadcast S2048x512 (Scalar.ofBits .f32 0x00000000#32))

/-- Last stage: `h · w + b`, 512 columns to 128. -/
def stage4 (h : FVec Ideal S2048x512 .f32) (w : FVec Ideal S512x128 .bf16) (b : FVec Ideal S1x128 .f32) : FVec Ideal S2048x128 .f32 :=
  addf (matmul dot_S2048x512_S512x128_S2048x128_1_0_0_1_n_n none
      (truncf .bf16 h bitsLt_bf16_f32)
      (shapeCast S512x128 w shapeCasts_S512x128_S512x128) (constant S2048x128 .f32 0x00000000#32))
    (broadcastTo S2048x128 (shapeCast S1x128 b shapeCasts_S1x128_S1x128) broadcasts_S1x128_S2048x128)

/-- The body's stored value is the four stages composed. -/
theorem body_eq (x : FVec Ideal S2048x256 .f32) (w1 : FVec Ideal S256x512 .bf16) (b1 : FVec Ideal S1x512 .f32)
    (w2 : FVec Ideal S512x512 .bf16) (b2 : FVec Ideal S1x512 .f32) (w3 : FVec Ideal S512x512 .bf16) (b3 : FVec Ideal S1x512 .f32)
    (w4 : FVec Ideal S512x128 .bf16) (b4 : FVec Ideal S1x128 .f32) :
    k0_pay1 (k0_pay2 x w1 b1 w2 b2 w3 b3 w4) b4 = stage4 (stage2 (stage2 (stage1 x w1 b1) w2 b2) w3 b3) w4 b4 := rfl

/-- A bias row broadcast down the rows, read at `(y, c)`, is the row's entry `c`. -/
theorem bias512_apply (b : FVec Ideal S1x512 .f32) (y : Fin 2048) (c : Fin 512) :
    broadcastTo S2048x512 (shapeCast S1x512 b shapeCasts_S1x512_S1x512) broadcasts_S1x512_S2048x512 (ix2 y c) = b (ix2 0 c) := by
  rw [shapeCast_self]
  exact broadcastTo_1b_ab_apply b broadcasts_S1x512_S2048x512 y c

theorem bias128_apply (b : FVec Ideal S1x128 .f32) (y : Fin 2048) (c : Fin 128) :
    broadcastTo S2048x128 (shapeCast S1x128 b shapeCasts_S1x128_S1x128) broadcasts_S1x128_S2048x128 (ix2 y c) = b (ix2 0 c) := by
  rw [shapeCast_self]
  exact broadcastTo_1b_ab_apply b broadcasts_S1x128_S2048x128 y c

theorem stage1_apply (x : FVec Ideal S2048x256 .f32) (w : FVec Ideal S256x512 .bf16) (b : FVec Ideal S1x512 .f32)
    (y : Fin 2048) (c : Fin 512) :
    stage1 x w b (ix2 y c) = max ((∑ k : Fin 256, x (ix2 y k) * w (ix2 k c)) + b (ix2 0 c)) 0 := by
  unfold stage1
  rw [maximumf_apply, addf_apply, prod1_apply, bias512_apply, shapeCast_self, shapeCast_self]
  show max _ (Ideal.ofBits .f32 0x00000000#32) = _
  rw [Ideal.ofBits_zero_f32]
  rfl

theorem stage2_apply (h : FVec Ideal S2048x512 .f32) (w : FVec Ideal S512x512 .bf16) (b : FVec Ideal S1x512 .f32)
    (y : Fin 2048) (c : Fin 512) :
    stage2 h w b (ix2 y c) = max ((∑ k : Fin 512, h (ix2 y k) * w (ix2 k c)) + b (ix2 0 c)) 0 := by
  unfold stage2
  rw [maximumf_apply, addf_apply, prod2_apply, bias512_apply, shapeCast_self]
  show max _ (Ideal.ofBits .f32 0x00000000#32) = _
  rw [Ideal.ofBits_zero_f32]
  rfl

theorem stage4_apply (h : FVec Ideal S2048x512 .f32) (w : FVec Ideal S512x128 .bf16) (b : FVec Ideal S1x128 .f32)
    (y : Fin 2048) (c : Fin 128) :
    stage4 h w b (ix2 y c) = (∑ k : Fin 512, h (ix2 y k) * w (ix2 k c)) + b (ix2 0 c) := by
  unfold stage4
  rw [addf_apply, prod3_apply, bias128_apply, shapeCast_self]
  rfl

/-! ## Block-diagonal weights: the body is the network on each segment -/

/-- With block-diagonal weights (diagonal blocks `W_l`) and repeated biases (`B_l`), entry `o` of
    segment `s` of packed row `y` of the stored block is the four-layer network applied to segment `s`
    of packed row `y` of the input block. -/
theorem body_packed (x : FVec Ideal S2048x256 .f32) (w1 : FVec Ideal S256x512 .bf16) (b1 : FVec Ideal S1x512 .f32)
    (w2 : FVec Ideal S512x512 .bf16) (b2 : FVec Ideal S1x512 .f32) (w3 : FVec Ideal S512x512 .bf16) (b3 : FVec Ideal S1x512 .f32)
    (w4 : FVec Ideal S512x128 .bf16) (b4 : FVec Ideal S1x128 .f32)
    (W1 : (⟨2, ![32, 64]⟩ : Shape).Idx → EReal) (B1 : (⟨1, ![64]⟩ : Shape).Idx → EReal)
    (W2 : (⟨2, ![64, 64]⟩ : Shape).Idx → EReal) (B2 : (⟨1, ![64]⟩ : Shape).Idx → EReal)
    (W3 : (⟨2, ![64, 64]⟩ : Shape).Idx → EReal) (B3 : (⟨1, ![64]⟩ : Shape).Idx → EReal)
    (W4 : (⟨2, ![64, 16]⟩ : Shape).Idx → EReal) (B4 : (⟨1, ![16]⟩ : Shape).Idx → EReal)
    (hw1 : ∀ (a : Fin 8) (k : Fin 32) (s : Fin 8) (o : Fin 64),
      w1 (ix2 (pack 32 256 rfl a k) (pack 64 512 rfl s o)) = (if a = s then (1 : EReal) else 0) * W1 (ix2 k o))
    (hb1 : ∀ (s : Fin 8) (o : Fin 64), b1 (ix2 (0 : Fin 1) (pack 64 512 rfl s o)) = B1 (ix1 o))
    (hw2 : ∀ (a : Fin 8) (k : Fin 64) (s : Fin 8) (o : Fin 64),
      w2 (ix2 (pack 64 512 rfl a k) (pack 64 512 rfl s o)) = (if a = s then (1 : EReal) else 0) * W2 (ix2 k o))
    (hb2 : ∀ (s : Fin 8) (o : Fin 64), b2 (ix2 (0 : Fin 1) (pack 64 512 rfl s o)) = B2 (ix1 o))
    (hw3 : ∀ (a : Fin 8) (k : Fin 64) (s : Fin 8) (o : Fin 64),
      w3 (ix2 (pack 64 512 rfl a k) (pack 64 512 rfl s o)) = (if a = s then (1 : EReal) else 0) * W3 (ix2 k o))
    (hb3 : ∀ (s : Fin 8) (o : Fin 64), b3 (ix2 (0 : Fin 1) (pack 64 512 rfl s o)) = B3 (ix1 o))
    (hw4 : ∀ (a : Fin 8) (k : Fin 64) (s : Fin 8) (o : Fin 16),
      w4 (ix2 (pack 64 512 rfl a k) (pack 16 128 rfl s o)) = (if a = s then (1 : EReal) else 0) * W4 (ix2 k o))
    (hb4 : ∀ (s : Fin 8) (o : Fin 16), b4 (ix2 (0 : Fin 1) (pack 16 128 rfl s o)) = B4 (ix1 o))
    (y : Fin 2048) (s : Fin 8) (o : Fin 16) :
    k0_pay1 (F := Ideal) (k0_pay2 (F := Ideal) x w1 b1 w2 b2 w3 b3 w4) b4 (ix2 y (pack 16 128 rfl s o))
      = mlp W1 B1 W2 B2 W3 B3 W4 B4 (fun k => x (ix2 y (pack 32 256 rfl s k))) o := by
  have h1 : ∀ (s : Fin 8) (o : Fin 64), stage1 x w1 b1 (ix2 y (pack 64 512 rfl s o))
      = relu (layer W1 B1 (fun k => x (ix2 y (pack 32 256 rfl s k)))) o := by
    intro s o
    rw [stage1_apply]
    exact congrArg (fun z => max z 0) (packed_layer (K := 32) (N := 64) rfl rfl (fun k' => x (ix2 y k'))
      (fun k' c => w1 (ix2 k' c)) (fun c => b1 (ix2 (0 : Fin 1) c)) W1 B1 hw1 hb1 s o)
  have h2 : ∀ (s : Fin 8) (o : Fin 64), stage2 (stage1 x w1 b1) w2 b2 (ix2 y (pack 64 512 rfl s o))
      = relu (layer W2 B2 (relu (layer W1 B1 (fun k => x (ix2 y (pack 32 256 rfl s k)))))) o := by
    intro s o
    rw [stage2_apply]
    refine (congrArg (fun z => max z 0) (packed_layer (K := 64) (N := 64) rfl rfl (fun k' => stage1 x w1 b1 (ix2 y k'))
      (fun k' c => w2 (ix2 k' c)) (fun c => b2 (ix2 (0 : Fin 1) c)) W2 B2 hw2 hb2 s o)).trans ?_
    simp only [h1]
    rfl
  have h3 : ∀ (s : Fin 8) (o : Fin 64), stage2 (stage2 (stage1 x w1 b1) w2 b2) w3 b3 (ix2 y (pack 64 512 rfl s o))
      = relu (layer W3 B3 (relu (layer W2 B2 (relu (layer W1 B1 (fun k => x (ix2 y (pack 32 256 rfl s k)))))))) o := by
    intro s o
    rw [stage2_apply]
    refine (congrArg (fun z => max z 0) (packed_layer (K := 64) (N := 64) rfl rfl (fun k' => stage2 (stage1 x w1 b1) w2 b2 (ix2 y k'))
      (fun k' c => w3 (ix2 k' c)) (fun c => b3 (ix2 (0 : Fin 1) c)) W3 B3 hw3 hb3 s o)).trans ?_
    simp only [h2]
    rfl
  rw [body_eq, stage4_apply]
  refine (packed_layer (K := 64) (N := 16) rfl rfl (fun k' => stage2 (stage2 (stage1 x w1 b1) w2 b2) w3 b3 (ix2 y k'))
    (fun k' c => w4 (ix2 k' c)) (fun c => b4 (ix2 (0 : Fin 1) c)) W4 B4 hw4 hb4 s o).trans ?_
  simp only [h3]
  rfl

end Cert.KernelIdeal.Body

end
-- ==== Proof.Blocks.lean ====
/-
  From the blocks the kernel writes to the whole result.

  The grid has 64 points; point `t` reads packed rows `2048·t … 2048·t + 2047` of the packed input and
  writes the same rows of the packed result, while every weight and bias window is the whole array at
  every point.  Packed row `R`, segment `s`, is logical row `8·R + s`; the packed result [131072, 128]
  and the result [1048576, 16] have the same row-major order, so entry `(R, 16·s + o)` of the one is
  entry `(8·R + s, o)` of the other.  Hence, given what the host operations before the launch leave in
  the weight, bias and packed-input arrays (`Glue`), every block written is a block of the packed form of
  the specification's `G`, the 64 blocks cover the packed result, and the final reshape returns `G`.
-/
import proofs.«179516_j63848983822902_2_alg».proof.Proof.Gen.KernelIdeal.Frame
import proofs.«179516_j63848983822902_2_alg».proof.Proof.Body
import Idealize.ShloMosaic.Lib.Pipeline.Value
import Idealize.ShloMosaic.Lib.StableHlo.Run

set_option maxRecDepth 16384

noncomputable section

namespace Cert.KernelIdeal.Packed

open Cert.KernelIdeal Cert.KernelIdeal.Gen Cert.KernelIdeal.Body Cert.MlpSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- What the host operations before the launch leave in the arrays the kernel reads, entry by entry:
    the packed input is the input with eight rows side by side, each weight is block diagonal with the
    given weight on the diagonal, each bias is the given bias repeated. -/
structure Glue (c : Dev nD) : Prop where
  x : ∀ (R : Fin 131072) (s : Fin 8) (k : Fin 32),
    (V m c main_v0 : S131072x256.Idx → EReal) (ix2 R (pack 32 256 rfl s k)) = (m ((c : Thread nD τ).loc main_arg0) : S1048576x32.Idx → EReal) (ix2 (row8 R s) k)
  w1 : ∀ (a : Fin 8) (k : Fin 32) (s : Fin 8) (o : Fin 64),
    (V m c main_v8 : S256x512.Idx → EReal) (ix2 (pack 32 256 rfl a k) (pack 64 512 rfl s o)) = (if a = s then (1 : EReal) else 0) * (m ((c : Thread nD τ).loc main_arg1) : S32x64.Idx → EReal) (ix2 k o)
  w2 : ∀ (a : Fin 8) (k : Fin 64) (s : Fin 8) (o : Fin 64),
    (V m c main_v16 : S512x512.Idx → EReal) (ix2 (pack 64 512 rfl a k) (pack 64 512 rfl s o)) = (if a = s then (1 : EReal) else 0) * (m ((c : Thread nD τ).loc main_arg3) : S64x64.Idx → EReal) (ix2 k o)
  w3 : ∀ (a : Fin 8) (k : Fin 64) (s : Fin 8) (o : Fin 64),
    (V m c main_v24 : S512x512.Idx → EReal) (ix2 (pack 64 512 rfl a k) (pack 64 512 rfl s o)) = (if a = s then (1 : EReal) else 0) * (m ((c : Thread nD τ).loc main_arg5) : S64x64.Idx → EReal) (ix2 k o)
  w4 : ∀ (a : Fin 8) (k : Fin 64) (s : Fin 8) (o : Fin 16),
    (V m c main_v32 : S512x128.Idx → EReal) (ix2 (pack 64 512 rfl a k) (pack 16 128 rfl s o)) = (if a = s then (1 : EReal) else 0) * (m ((c : Thread nD τ).loc main_arg7) : S64x16.Idx → EReal) (ix2 k o)
  b1 : ∀ (s : Fin 8) (o : Fin 64), (V m c main_v36 : S1x512.Idx → EReal) (ix2 (0 : Fin 1) (pack 64 512 rfl s o)) = (m ((c : Thread nD τ).loc main_arg2) : S64.Idx → EReal) (ix1 o)
  b2 : ∀ (s : Fin 8) (o : Fin 64), (V m c main_v40 : S1x512.Idx → EReal) (ix2 (0 : Fin 1) (pack 64 512 rfl s o)) = (m ((c : Thread nD τ).loc main_arg4) : S64.Idx → EReal) (ix1 o)
  b3 : ∀ (s : Fin 8) (o : Fin 64), (V m c main_v44 : S1x512.Idx → EReal) (ix2 (0 : Fin 1) (pack 64 512 rfl s o)) = (m ((c : Thread nD τ).loc main_arg6) : S64.Idx → EReal) (ix1 o)
  b4 : ∀ (s : Fin 8) (o : Fin 16), (V m c main_v48 : S1x128.Idx → EReal) (ix2 (0 : Fin 1) (pack 16 128 rfl s o)) = (m ((c : Thread nD τ).loc main_arg8) : S16.Idx → EReal) (ix1 o)

/-- The specification's result for the launch memory of core `c`. -/
def result (c : Dev nD) : S1048576x16.Idx → EReal := G (m ((c : Thread nD τ).loc main_arg0) : S1048576x32.Idx → EReal) (m ((c : Thread nD τ).loc main_arg1) : S32x64.Idx → EReal) (m ((c : Thread nD τ).loc main_arg2) : S64.Idx → EReal) (m ((c : Thread nD τ).loc main_arg3) : S64x64.Idx → EReal) (m ((c : Thread nD τ).loc main_arg4) : S64.Idx → EReal) (m ((c : Thread nD τ).loc main_arg5) : S64x64.Idx → EReal) (m ((c : Thread nD τ).loc main_arg6) : S64.Idx → EReal) (m ((c : Thread nD τ).loc main_arg7) : S64x16.Idx → EReal) (m ((c : Thread nD τ).loc main_arg8) : S16.Idx → EReal)

/-- Its packed form: the same entries in the same row-major order, 128 to a row. -/
def packedResult (c : Dev nD) : S131072x128.Idx → EReal :=
  shapeCast S131072x128 (result m c) shapeCasts_S131072x128_S1048576x16.symm

/-- Entry `(R, 16·s + o)` of the packed result is entry `(8·R + s, o)` of the result. -/
theorem packedResult_apply (c : Dev nD) (R : Fin 131072) (s : Fin 8) (o : Fin 16) :
    packedResult m c (ix2 R (pack 16 128 rfl s o)) = result m c (ix2 (row8 R s) o) := by
  unfold packedResult
  refine shapeCast_apply _ _ (ix2 R (pack 16 128 rfl s o)) (ix2 (row8 R s) o) ?_
  rw [Shape.rowMajor_val_two, Shape.rowMajor_val_two]
  show (row8 R s).val * 16 + o.val = R.val * 128 + (pack 16 128 rfl s o).val
  rw [row8_val, pack_val]
  omega

/-- Every column of a packed row of 128 is position `o` of some segment `s`. -/
theorem exists_pack16 (cc : Fin 128) : ∃ (s : Fin 8) (o : Fin 16), cc = pack 16 128 rfl s o :=
  ⟨⟨cc.val / 16, by have := cc.isLt; omega⟩, ⟨cc.val % 16, Nat.mod_lt _ (by decide)⟩, Fin.ext (by rw [pack_val]; show cc.val = cc.val % 16 + 16 * (cc.val / 16); omega)⟩

/-! ## Where each window's block sits -/

theorem hz : (![0, 0] : Fin 2 → Nat) = fun _ => 0 := funext fun a => by fin_cases a <;> rfl

/-- The printed index maps over the grid: the packed input and the packed result move one block of 2048
    rows per point; every other window stays at the origin. -/
theorem index_facts : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0) :=
  (by decide +kernel : ∀ t : Fin grid0.N, _)

/-- Window 1 is not tiled: its block at every point is the whole array `main_v8`. -/
theorem block1_eq (c : Dev nD) (t : Fin cfg0.N) : (iblk m c 1 t : FVec Ideal S256x512 .bf16) = (V m c main_v8 : S256x512.Idx → EReal) := by
  have e0 : win0_1.index t (0 : Fin 2) = 0 := (index_facts t).2.1.1
  have e1 : win0_1.index t (1 : Fin 2) = 0 := (index_facts t).2.1.2
  funext j
  unfold iblk
  rw [View.read_apply]
  show V m c main_v8 _ = V m c main_v8 j
  congr 1
  funext a
  apply Fin.ext
  match a with
  | ⟨0, _⟩ => show win0_1.index t (0 : Fin 2) * 256 + 1 * (j 0).val = (j 0).val; rw [e0]; omega
  | ⟨1, _⟩ => show win0_1.index t (1 : Fin 2) * 512 + 1 * (j 1).val = (j 1).val; rw [e1]; omega

/-- Window 2 is not tiled: its block at every point is the whole array `main_v36`. -/
theorem block2_eq (c : Dev nD) (t : Fin cfg0.N) : (iblk m c 2 t : FVec Ideal S1x512 .f32) = (V m c main_v36 : S1x512.Idx → EReal) := by
  have e0 : win0_2.index t (0 : Fin 2) = 0 := (index_facts t).2.2.1.1
  have e1 : win0_2.index t (1 : Fin 2) = 0 := (index_facts t).2.2.1.2
  funext j
  unfold iblk
  rw [View.read_apply]
  show V m c main_v36 _ = V m c main_v36 j
  congr 1
  funext a
  apply Fin.ext
  match a with
  | ⟨0, _⟩ => show win0_2.index t (0 : Fin 2) * 1 + 1 * (j 0).val = (j 0).val; rw [e0]; omega
  | ⟨1, _⟩ => show win0_2.index t (1 : Fin 2) * 512 + 1 * (j 1).val = (j 1).val; rw [e1]; omega

/-- Window 3 is not tiled: its block at every point is the whole array `main_v16`. -/
theorem block3_eq (c : Dev nD) (t : Fin cfg0.N) : (iblk m c 3 t : FVec Ideal S512x512 .bf16) = (V m c main_v16 : S512x512.Idx → EReal) := by
  have e0 : win0_3.index t (0 : Fin 2) = 0 := (index_facts t).2.2.2.1.1
  have e1 : win0_3.index t (1 : Fin 2) = 0 := (index_facts t).2.2.2.1.2
  funext j
  unfold iblk
  rw [View.read_apply]
  show V m c main_v16 _ = V m c main_v16 j
  congr 1
  funext a
  apply Fin.ext
  match a with
  | ⟨0, _⟩ => show win0_3.index t (0 : Fin 2) * 512 + 1 * (j 0).val = (j 0).val; rw [e0]; omega
  | ⟨1, _⟩ => show win0_3.index t (1 : Fin 2) * 512 + 1 * (j 1).val = (j 1).val; rw [e1]; omega

/-- Window 4 is not tiled: its block at every point is the whole array `main_v40`. -/
theorem block4_eq (c : Dev nD) (t : Fin cfg0.N) : (iblk m c 4 t : FVec Ideal S1x512 .f32) = (V m c main_v40 : S1x512.Idx → EReal) := by
  have e0 : win0_4.index t (0 : Fin 2) = 0 := (index_facts t).2.2.2.2.1.1
  have e1 : win0_4.index t (1 : Fin 2) = 0 := (index_facts t).2.2.2.2.1.2
  funext j
  unfold iblk
  rw [View.read_apply]
  show V m c main_v40 _ = V m c main_v40 j
  congr 1
  funext a
  apply Fin.ext
  match a with
  | ⟨0, _⟩ => show win0_4.index t (0 : Fin 2) * 1 + 1 * (j 0).val = (j 0).val; rw [e0]; omega
  | ⟨1, _⟩ => show win0_4.index t (1 : Fin 2) * 512 + 1 * (j 1).val = (j 1).val; rw [e1]; omega

/-- Window 5 is not tiled: its block at every point is the whole array `main_v24`. -/
theorem block5_eq (c : Dev nD) (t : Fin cfg0.N) : (iblk m c 5 t : FVec Ideal S512x512 .bf16) = (V m c main_v24 : S512x512.Idx → EReal) := by
  have e0 : win0_5.index t (0 : Fin 2) = 0 := (index_facts t).2.2.2.2.2.1.1
  have e1 : win0_5.index t (1 : Fin 2) = 0 := (index_facts t).2.2.2.2.2.1.2
  funext j
  unfold iblk
  rw [View.read_apply]
  show V m c main_v24 _ = V m c main_v24 j
  congr 1
  funext a
  apply Fin.ext
  match a with
  | ⟨0, _⟩ => show win0_5.index t (0 : Fin 2) * 512 + 1 * (j 0).val = (j 0).val; rw [e0]; omega
  | ⟨1, _⟩ => show win0_5.index t (1 : Fin 2) * 512 + 1 * (j 1).val = (j 1).val; rw [e1]; omega

/-- Window 6 is not tiled: its block at every point is the whole array `main_v44`. -/
theorem block6_eq (c : Dev nD) (t : Fin cfg0.N) : (iblk m c 6 t : FVec Ideal S1x512 .f32) = (V m c main_v44 : S1x512.Idx → EReal) := by
  have e0 : win0_6.index t (0 : Fin 2) = 0 := (index_facts t).2.2.2.2.2.2.1.1
  have e1 : win0_6.index t (1 : Fin 2) = 0 := (index_facts t).2.2.2.2.2.2.1.2
  funext j
  unfold iblk
  rw [View.read_apply]
  show V m c main_v44 _ = V m c main_v44 j
  congr 1
  funext a
  apply Fin.ext
  match a with
  | ⟨0, _⟩ => show win0_6.index t (0 : Fin 2) * 1 + 1 * (j 0).val = (j 0).val; rw [e0]; omega
  | ⟨1, _⟩ => show win0_6.index t (1 : Fin 2) * 512 + 1 * (j 1).val = (j 1).val; rw [e1]; omega

/-- Window 7 is not tiled: its block at every point is the whole array `main_v32`. -/
theorem block7_eq (c : Dev nD) (t : Fin cfg0.N) : (iblk m c 7 t : FVec Ideal S512x128 .bf16) = (V m c main_v32 : S512x128.Idx → EReal) := by
  have e0 : win0_7.index t (0 : Fin 2) = 0 := (index_facts t).2.2.2.2.2.2.2.1.1
  have e1 : win0_7.index t (1 : Fin 2) = 0 := (index_facts t).2.2.2.2.2.2.2.1.2
  funext j
  unfold iblk
  rw [View.read_apply]
  show V m c main_v32 _ = V m c main_v32 j
  congr 1
  funext a
  apply Fin.ext
  match a with
  | ⟨0, _⟩ => show win0_7.index t (0 : Fin 2) * 512 + 1 * (j 0).val = (j 0).val; rw [e0]; omega
  | ⟨1, _⟩ => show win0_7.index t (1 : Fin 2) * 128 + 1 * (j 1).val = (j 1).val; rw [e1]; omega

/-- Window 8 is not tiled: its block at every point is the whole array `main_v48`. -/
theorem block8_eq (c : Dev nD) (t : Fin cfg0.N) : (iblk m c 8 t : FVec Ideal S1x128 .f32) = (V m c main_v48 : S1x128.Idx → EReal) := by
  have e0 : win0_8.index t (0 : Fin 2) = 0 := (index_facts t).2.2.2.2.2.2.2.2.1.1
  have e1 : win0_8.index t (1 : Fin 2) = 0 := (index_facts t).2.2.2.2.2.2.2.2.1.2
  funext j
  unfold iblk
  rw [View.read_apply]
  show V m c main_v48 _ = V m c main_v48 j
  congr 1
  funext a
  apply Fin.ext
  match a with
  | ⟨0, _⟩ => show win0_8.index t (0 : Fin 2) * 1 + 1 * (j 0).val = (j 0).val; rw [e0]; omega
  | ⟨1, _⟩ => show win0_8.index t (1 : Fin 2) * 128 + 1 * (j 1).val = (j 1).val; rw [e1]; omega

/-- Row `y` of the packed input's block at point `t` is packed row `2048·t + y`. -/
def rowAt (t : Fin cfg0.N) (y : Fin 2048) : Fin 131072 :=
  ⟨2048 * t.val + y.val, by have := t.isLt; have hN : cfg0.N = 64 := N_0; have := y.isLt; omega⟩

theorem block0_apply (c : Dev nD) (t : Fin cfg0.N) (y : Fin 2048) (k : Fin 256) :
    (iblk m c 0 t : FVec Ideal S2048x256 .f32) (ix2 y k) = (V m c main_v0 : S131072x256.Idx → EReal) (ix2 (rowAt t y) k) := by
  have e0 : win0_0.index t (0 : Fin 2) = t.val := (index_facts t).1.1
  have e1 : win0_0.index t (1 : Fin 2) = 0 := (index_facts t).1.2
  unfold iblk
  rw [View.read_apply]
  show V m c main_v0 _ = V m c main_v0 _
  congr 1
  funext a
  apply Fin.ext
  match a with
  | ⟨0, _⟩ => show win0_0.index t (0 : Fin 2) * 2048 + 1 * y.val = 2048 * t.val + y.val; rw [e0]; omega
  | ⟨1, _⟩ => show win0_0.index t (1 : Fin 2) * 256 + 1 * k.val = k.val; rw [e1]; omega

/-! ## What each point writes back, and the whole packed result -/

/-- Point `t` writes back block `t` of the packed result: entry `(y, 16·s + o)` of the stored block is the
    network applied to segment `s` of packed row `2048·t + y` of the packed input, which is logical row
    `8·(2048·t + y) + s` of the input. -/
theorem flushed9_eq (hg : ∀ c, Glue m c) (c : Dev nD) (t : Fin cfg0.N) :
    (dats m 0 c).flushed 9 t = ((cfg0.win 9).blk t).view.read (Elt Ideal) (packedResult m c) := by
  have e0 : win0_9.index t (0 : Fin 2) = t.val := (index_facts t).2.2.2.2.2.2.2.2.2.1
  have e1 : win0_9.index t (1 : Fin 2) = 0 := (index_facts t).2.2.2.2.2.2.2.2.2.2
  show (cfg0.win 9).cut (grid0.coords t) ((dats m 0 c).after 9 t) = _
  rw [after0_9]
  unfold out0_9
  rw [View.canon_unit_zero hz]
  simp only [View.ld_unit_zero (S := S2048x256) hz, View.ld_unit_zero (S := S256x512) hz, View.ld_unit_zero (S := S1x512) hz,
    View.ld_unit_zero (S := S512x512) hz, View.ld_unit_zero (S := S512x128) hz, View.ld_unit_zero (S := S1x128) hz]
  refine funext fun (j : S2048x128.Idx) => ?_
  obtain ⟨y, cc, rfl⟩ : ∃ (y : Fin 2048) (cc : Fin 128), j = ix2 y cc := ⟨j 0, j 1, eq_ix2 j⟩
  obtain ⟨s, o, rfl⟩ := exists_pack16 cc
  show k0_pay1 (F := Ideal) (k0_pay2 (F := Ideal) (iblk m c 0 t) (iblk m c 1 t) (iblk m c 2 t) (iblk m c 3 t) (iblk m c 4 t) (iblk m c 5 t) (iblk m c 6 t) (iblk m c 7 t)) (iblk m c 8 t) (ix2 y (pack 16 128 rfl s o))
    = packedResult m c (((cfg0.win 9).blk t).view.emb (ix2 y (pack 16 128 rfl s o)))
  have hemb : ((cfg0.win 9).blk t).view.emb (ix2 y (pack 16 128 rfl s o)) = ix2 (rowAt t y) (pack 16 128 rfl s o) := by
    funext a
    apply Fin.ext
    match a with
    | ⟨0, _⟩ => show win0_9.index t (0 : Fin 2) * 2048 + 1 * y.val = 2048 * t.val + y.val; rw [e0]; omega
    | ⟨1, _⟩ => show win0_9.index t (1 : Fin 2) * 128 + 1 * (pack 16 128 rfl s o).val = (pack 16 128 rfl s o).val; rw [e1]; omega
  rw [hemb, packedResult_apply]
  refine (body_packed (iblk m c 0 t) (iblk m c 1 t) (iblk m c 2 t) (iblk m c 3 t) (iblk m c 4 t) (iblk m c 5 t) (iblk m c 6 t) (iblk m c 7 t) (iblk m c 8 t)
    (m ((c : Thread nD τ).loc main_arg1) : S32x64.Idx → EReal)
    (m ((c : Thread nD τ).loc main_arg2) : S64.Idx → EReal)
    (m ((c : Thread nD τ).loc main_arg3) : S64x64.Idx → EReal)
    (m ((c : Thread nD τ).loc main_arg4) : S64.Idx → EReal)
    (m ((c : Thread nD τ).loc main_arg5) : S64x64.Idx → EReal)
    (m ((c : Thread nD τ).loc main_arg6) : S64.Idx → EReal)
    (m ((c : Thread nD τ).loc main_arg7) : S64x16.Idx → EReal)
    (m ((c : Thread nD τ).loc main_arg8) : S16.Idx → EReal)
    (fun a k s o => by rw [block1_eq]; exact (hg c).w1 a k s o) (fun s o => by rw [block2_eq]; exact (hg c).b1 s o)
    (fun a k s o => by rw [block3_eq]; exact (hg c).w2 a k s o) (fun s o => by rw [block4_eq]; exact (hg c).b2 s o)
    (fun a k s o => by rw [block5_eq]; exact (hg c).w3 a k s o) (fun s o => by rw [block6_eq]; exact (hg c).b3 s o)
    (fun a k s o => by rw [block7_eq]; exact (hg c).w4 a k s o) (fun s o => by rw [block8_eq]; exact (hg c).b4 s o)
    y s o).trans ?_
  unfold result
  rw [G_ix2]
  exact congrArg (fun f => mlp (m ((c : Thread nD τ).loc main_arg1) : S32x64.Idx → EReal) (m ((c : Thread nD τ).loc main_arg2) : S64.Idx → EReal) (m ((c : Thread nD τ).loc main_arg3) : S64x64.Idx → EReal) (m ((c : Thread nD τ).loc main_arg4) : S64.Idx → EReal) (m ((c : Thread nD τ).loc main_arg5) : S64x64.Idx → EReal) (m ((c : Thread nD τ).loc main_arg6) : S64.Idx → EReal) (m ((c : Thread nD τ).loc main_arg7) : S64x16.Idx → EReal) (m ((c : Thread nD τ).loc main_arg8) : S16.Idx → EReal) f o)
    (funext fun k => by rw [block0_apply, (hg c).x])

/-- An index of the packed result is in point `t`'s block iff each coordinate is in the block's range. -/
theorem mem_block9 (t : Fin cfg0.N) (i : S131072x128.Idx) :
    i ∈ ((cfg0.win 9).blk t).view.set ↔ ∀ a : Fin 2, win0_9.index t a * S2048x128.size a ≤ (i a).val ∧ (i a).val < win0_9.index t a * S2048x128.size a + S2048x128.size a := by
  show i ∈ ((View.whole main_v49).slice (win0_9.rect t)).set ↔ _
  rw [View.set_slice_whole, Rect.mem_set_unit]
  exact Iff.rfl

/-- The 64 blocks of 2048 rows cover the 131072 packed rows: row `R` is in block `R / 2048`. -/
theorem cover9 (i : S131072x128.Idx) : ∃ t : Fin cfg0.N, (cfg0.win 9).flush t = true ∧ i ∈ ((cfg0.win 9).blk t).view.set := by
  have hN : cfg0.N = 64 := N_0
  have hi0 : (i 0).val < 131072 := (i 0).isLt
  have hi1 : (i 1).val < 128 := (i 1).isLt
  obtain ⟨t, ht⟩ : ∃ t : Fin cfg0.N, t.val = (i 0).val / 2048 := ⟨⟨(i 0).val / 2048, by omega⟩, rfl⟩
  have e0 : win0_9.index t (0 : Fin 2) = t.val := (index_facts t).2.2.2.2.2.2.2.2.2.1
  have e1 : win0_9.index t (1 : Fin 2) = 0 := (index_facts t).2.2.2.2.2.2.2.2.2.2
  refine ⟨t, flush0_9 t, ?_⟩
  rw [mem_block9]
  intro a
  match a with
  | ⟨0, _⟩ =>
    show win0_9.index t (0 : Fin 2) * 2048 ≤ (i 0).val ∧ (i 0).val < win0_9.index t (0 : Fin 2) * 2048 + 2048
    rw [e0, ht]; omega
  | ⟨1, _⟩ =>
    show win0_9.index t (1 : Fin 2) * 128 ≤ (i 1).val ∧ (i 1).val < win0_9.index t (1 : Fin 2) * 128 + 128
    rw [e1]; omega

/-- After the last point the packed result array holds the packed form of the specification's result. -/
theorem final9 (hg : ∀ c, Glue m c) (c : Dev nD) : (dats m 0 c).arrAt 9 cfg0.N = packedResult m c :=
  (dats m 0 c).arrAt_eq_of_cover 9 (packedResult m c) (fun t _ => flushed9_eq m hg c t) cover9

/-! ## The reshape after the launch, and the run -/

/-- The program's result: the packed result reshaped back, which is the specification's result (the two
    reshapes are inverse to each other). -/
theorem tail_eq (hg : ∀ c, Glue m c) (c : Dev nD) :
    Pipeline.afterTail₀ cfgs (dats m) 0 (V0 m) [hostOps1] c main_v50 = result m c := by
  have hA : Pipeline.withArrays spec0 c (V0 m c) (fun w => (dats m 0 c).arrAt w cfg0.N) (Proc.devRef .tc (Pipeline.arrRef spec0 9))
      = packedResult m c :=
    (Pipeline.withArrays_arr spec0 launch0.win.arr_inj c (V0 m c) (fun w => (dats m 0 c).arrAt w cfg0.N) 9).trans (final9 m hg c)
  refine Eq.trans (b := shapeCast S1048576x16 (packedResult m c) shapeCasts_S131072x128_S1048576x16) ?_
    (shapeCast_shapeCast (result m c) shapeCasts_S131072x128_S1048576x16.symm shapeCasts_S131072x128_S1048576x16)
  unfold Pipeline.afterTail₀
  show StableHlo.after hostOps1 _ (Proc.devRef .tc main_v50) = _
  after_results
  exact funext fun i => congrFun (congrArg (fun A => shapeCast S1048576x16 A shapeCasts_S131072x128_S1048576x16) hA) i

/-- THE RUN of the idealized kernel program: every weakly fair execution terminates with the result array
    at the specification's result of the launch memory, and the arguments unchanged. -/
theorem run (hg : ∀ c, Glue m c) : θ_run defs (onTc (τ := τ) (main (F := Ideal))) ⟨m, fun _ => 0, ρ⟩ fun r => ∀ c : Dev nD,
      r.2.mem ((c.tc : Thread nD τ).loc main_v50) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨((h c).2 main_v50 (Pipeline.mem_restRefs_of main_v50 (by decide) (by decide))).trans (tail_eq m hg c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.Packed

end
-- ==== Proof.lean ====
/-
  A four-layer network on 1048576 rows of 32 entries — three affine layers each followed by max(·, 0),
  then a last affine layer to 16 entries — computed two ways, and the two agree on the extended reals.

  The reference applies the layers to the [1048576, 32] array directly: row n of the result is
  mlp (row n of x) (Proof/Spec.lean: `layer`, `relu`, `mlp`, `G`; Proof/RefValue.lean: the reference's
  value is `G` of its arguments).

  The kernel packs eight consecutive rows side by side into one row of 256, replaces every weight W by
  the block-diagonal matrix with eight copies of W on the diagonal (built on the host as the Kronecker
  product of the 8×8 identity with W) and every bias by eight copies of itself (Proof/HostGlue.lean reads
  these host-built arrays entry by entry), and runs the four layers on blocks of 2048 packed rows.
  Since 0 · y = 0 and 0 + y = y for every extended real, the off-diagonal blocks contribute nothing and
  segment s of a packed row goes through exactly the plain network (Proof/Spec.lean `packed_layer`,
  Proof/Body.lean `body_packed`); the blocks tile the packed result, and reshaping the packed result
  [131072, 128] back to [1048576, 16] puts segment s of packed row R at row 8·R + s
  (Proof/Blocks.lean).  Changes of float format are the identity on extended reals, and no finiteness
  of the inputs is used: the two sides are equal as functions of arbitrary extended-real arrays.

  The three frames are the generated frame runs (the reference's is its generated run with the result
  dropped); the idealization rewrote nothing, so there is nothing to preserve.
-/
import proofs.«179516_j63848983822902_2_alg».proof.Defs
import proofs.«179516_j63848983822902_2_alg».proof.Proof.Gen.Kernel
import proofs.«179516_j63848983822902_2_alg».proof.Proof.Gen.Kernel.Skeleton
import proofs.«179516_j63848983822902_2_alg».proof.Proof.Gen.Kernel.Launch
import proofs.«179516_j63848983822902_2_alg».proof.Proof.Gen.Kernel.Points
import proofs.«179516_j63848983822902_2_alg».proof.Proof.Gen.Kernel.Frame
import proofs.«179516_j63848983822902_2_alg».proof.Proof.Gen.KernelIdeal
import proofs.«179516_j63848983822902_2_alg».proof.Proof.Gen.KernelIdeal.Skeleton
import proofs.«179516_j63848983822902_2_alg».proof.Proof.Gen.KernelIdeal.Launch
import proofs.«179516_j63848983822902_2_alg».proof.Proof.Gen.KernelIdeal.Points
import proofs.«179516_j63848983822902_2_alg».proof.Proof.Gen.KernelIdeal.Frame
import proofs.«179516_j63848983822902_2_alg».proof.Proof.Gen.ReferenceIdeal
import proofs.«179516_j63848983822902_2_alg».proof.Proof.Gen.ReferenceIdeal.Run
import proofs.«179516_j63848983822902_2_alg».proof.Proof.Gen.ReferenceIdeal.Read
import proofs.«179516_j63848983822902_2_alg».proof.Proof.Gen.Pre_finite_inputs
import proofs.«179516_j63848983822902_2_alg».proof.Proof.Spec
import proofs.«179516_j63848983822902_2_alg».proof.Proof.RefValue
import proofs.«179516_j63848983822902_2_alg».proof.Proof.HostGlue
import proofs.«179516_j63848983822902_2_alg».proof.Proof.Body
import proofs.«179516_j63848983822902_2_alg».proof.Proof.Blocks
import Idealize.ShloMosaic.Adequacy
import Idealize.ShloMosaic.Init

noncomputable section

namespace Cert.Proof

open Idealize.ShloMosaic Idealize.SL.Sem

/-- What the host operations before the launch leave in the arrays the kernel reads. -/
theorem glue (m : (ℓ : Loc Cert.KernelIdeal.nD Cert.KernelIdeal.τ Cert.KernelIdeal.sig) → Buf (Elt Ideal) ℓ)
    (c : Dev Cert.KernelIdeal.nD) : Cert.KernelIdeal.Packed.Glue m c :=
  ⟨Cert.KernelIdeal.Glue.V_x m c, Cert.KernelIdeal.Glue.V_w1 m c, Cert.KernelIdeal.Glue.V_w2 m c,
    Cert.KernelIdeal.Glue.V_w3 m c, Cert.KernelIdeal.Glue.V_w4 m c, Cert.KernelIdeal.Glue.V_b1 m c,
    Cert.KernelIdeal.Glue.V_b2 m c, Cert.KernelIdeal.Glue.V_b3 m c, Cert.KernelIdeal.Glue.V_b4 m c⟩

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at `G` of the (agreeing) arguments. -/
theorem algebraic : Cert.algebraic_KernelIdeal_ReferenceIdeal := by
  intro m ρ m' ρ' _ hagree
  refine ⟨fun c => Cert.KernelIdeal.Packed.result m c, Cert.KernelIdeal.Packed.run m ρ (glue m), ?_⟩
  refine (θ_run Cert.ReferenceIdeal.defs _ _).mono (fun _ h c => ⟨?_, (h c).2⟩)
    (Cert.ReferenceIdeal.Value.run (F := Ideal) m' ρ')
  obtain ⟨h0, h1, h2, h3, h4, h5, h6, h7, h8⟩ := hagree c
  rw [(h c).1, Cert.ReferenceIdeal.Read.val_main_v18_eq, Cert.ReferenceIdeal.RefValue.ref_eq,
    h0, h1, h2, h3, h4, h5, h6, h7, h8]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
